-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x1024x3 : Shape := ⟨3, ![1, 1024, 3]⟩
abbrev S1x3x4096 : Shape := ⟨3, ![1, 3, 4096]⟩
abbrev S1x1024x1 : Shape := ⟨3, ![1, 1024, 1]⟩
abbrev S1x1x4096 : Shape := ⟨3, ![1, 1, 4096]⟩
abbrev S1024x3 : Shape := ⟨2, ![1024, 3]⟩
abbrev S3x4096 : Shape := ⟨2, ![3, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S8x4096 : Shape := ⟨2, ![8, 4096]⟩
abbrev S_ : Shape := ⟨0, ![]⟩
abbrev S8 : Shape := ⟨1, ![8]⟩
abbrev S8x1 : Shape := ⟨2, ![8, 1]⟩

abbrev nBuf : Space → Nat
  | .hbm => 108
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S_, .i32⟩
  | .hbm, ⟨14, _⟩ => ⟨S_, .f32⟩
  | .hbm, ⟨15, _⟩ => ⟨S8, .f32⟩
  | .hbm, ⟨16, _⟩ => ⟨S8x1, .f32⟩
  | .hbm, ⟨17, _⟩ => ⟨S_, .f32⟩
  | .hbm, ⟨18, _⟩ => ⟨S8x1, .f32⟩
  | .hbm, ⟨19, _⟩ => ⟨S8x1, .f32⟩
  | .hbm, ⟨20, _⟩ => ⟨S8x4096, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S8x1, .f32⟩
  | .hbm, ⟨36, _⟩ => ⟨S8x1, .f32⟩
  | .hbm, ⟨37, _⟩ => ⟨S8x1, .f32⟩
  | .hbm, ⟨38, _⟩ => ⟨S8x4096, .f32⟩
  | .hbm, ⟨39, _⟩ => ⟨S8x4096, .f32⟩
  | .hbm, ⟨40, _⟩ => ⟨S_, .f32⟩
  | .hbm, ⟨41, _⟩ => ⟨S8x1, .f32⟩
  | .hbm, ⟨42, _⟩ => ⟨S8x1, .f32⟩
  | .hbm, ⟨43, _⟩ => ⟨S8x4096, .f32⟩
  | .hbm, ⟨44, _⟩ => ⟨S8x4096, .i1⟩
  | .hbm, ⟨45, _⟩ => ⟨S8x4096, .i32⟩
  | .hbm, ⟨46, _⟩ => ⟨S_, .i32⟩
  | .hbm, ⟨47, _⟩ => ⟨S8, .i32⟩
  | .hbm, ⟨48, _⟩ => ⟨S8, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8x1, .f32⟩
  | .hbm, ⟨58, _⟩ => ⟨S_, .f32⟩
  | .hbm, ⟨59, _⟩ => ⟨S8x1, .f32⟩
  | .hbm, ⟨60, _⟩ => ⟨S8x1, .f32⟩
  | .hbm, ⟨61, _⟩ => ⟨S_, .i32⟩
  | .hbm, ⟨62, _⟩ => ⟨S_, .f32⟩
  | .hbm, ⟨63, _⟩ => ⟨S8, .f32⟩
  | .hbm, ⟨64, _⟩ => ⟨S8x1, .f32⟩
  | .hbm, ⟨65, _⟩ => ⟨S_, .f32⟩
  | .hbm, ⟨66, _⟩ => ⟨S8x1, .f32⟩
  | .hbm, ⟨67, _⟩ => ⟨S8x1, .f32⟩
  | .hbm, ⟨68, _⟩ => ⟨S8x4096, .f32⟩
  | .hbm, ⟨69, _⟩ => ⟨S8x4096, .f32⟩
  | .hbm, ⟨70, _⟩ => ⟨S8x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8, .f32⟩
  | .hbm, ⟨76, _⟩ => ⟨S8x1, .f32⟩
  | .hbm, ⟨77, _⟩ => ⟨S8x1, .f32⟩
  | .hbm, ⟨78, _⟩ => ⟨S8x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S8x1, .f32⟩
  | .hbm, ⟨84, _⟩ => ⟨S8x1, .f32⟩
  | .hbm, ⟨85, _⟩ => ⟨S8x1, .f32⟩
  | .hbm, ⟨86, _⟩ => ⟨S8x4096, .f32⟩
  | .hbm, ⟨87, _⟩ => ⟨S8x4096, .f32⟩
  | .hbm, ⟨88, _⟩ => ⟨S_, .f32⟩
  | .hbm, ⟨89, _⟩ => ⟨S8x1, .f32⟩
  | .hbm, ⟨90, _⟩ => ⟨S8x1, .f32⟩
  | .hbm, ⟨91, _⟩ => ⟨S8x4096, .f32⟩
  | .hbm, ⟨92, _⟩ => ⟨S8x4096, .i1⟩
  | .hbm, ⟨93, _⟩ => ⟨S8x4096, .i32⟩
  | .hbm, ⟨94, _⟩ => ⟨S_, .i32⟩
  | .hbm, ⟨95, _⟩ => ⟨S8, .i32⟩
  | .hbm, ⟨96, _⟩ => ⟨S8, .f32⟩
  | .hbm, ⟨97, _⟩ => ⟨S_, .f32⟩
  | .hbm, ⟨98, _⟩ => ⟨S8x4096, .f32⟩
  | .hbm, ⟨99, _⟩ => ⟨S8x4096, .f32⟩
  | .hbm, ⟨100, _⟩ => ⟨S_, .f32⟩
  | .hbm, ⟨101, _⟩ => ⟨S8, .f32⟩
  | .hbm, ⟨102, _⟩ => ⟨S8, .f32⟩
  | .hbm, ⟨103, _⟩ => ⟨S8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_call1_v0 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_cst_5 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_c_7 : Ref sig .tc := ⟨.hbm, 61, rfl⟩
abbrev main_call2_call0_cst : Ref sig .tc := ⟨.hbm, 62, rfl⟩
abbrev main_call2_call0_v0 : Ref sig .tc := ⟨.hbm, 63, rfl⟩
abbrev main_call2_call0_v1 : Ref sig .tc := ⟨.hbm, 64, rfl⟩
abbrev main_call2_call0_cst_0 : Ref sig .tc := ⟨.hbm, 65, rfl⟩
abbrev main_call2_call0_v2 : Ref sig .tc := ⟨.hbm, 66, rfl⟩
abbrev main_call2_call0_v3 : Ref sig .tc := ⟨.hbm, 67, rfl⟩
abbrev main_call2_call0_v4 : Ref sig .tc := ⟨.hbm, 68, rfl⟩
abbrev main_call2_call0_v5 : Ref sig .tc := ⟨.hbm, 69, rfl⟩
abbrev main_call2_call0_v6 : Ref sig .tc := ⟨.hbm, 70, rfl⟩
abbrev main_call2_call0_v7 : Ref sig .tc := ⟨.hbm, 71, rfl⟩
abbrev main_call2_call0_cst_1 : Ref sig .tc := ⟨.hbm, 72, rfl⟩
abbrev main_call2_call0_v8 : Ref sig .tc := ⟨.hbm, 73, rfl⟩
abbrev main_call2_call0_cst_2 : Ref sig .tc := ⟨.hbm, 74, rfl⟩
abbrev main_call2_call0_v9 : Ref sig .tc := ⟨.hbm, 75, rfl⟩
abbrev main_call2_call0_v10 : Ref sig .tc := ⟨.hbm, 76, rfl⟩
abbrev main_call2_call0_v11 : Ref sig .tc := ⟨.hbm, 77, rfl⟩
abbrev main_call2_call0_v12 : Ref sig .tc := ⟨.hbm, 78, rfl⟩
abbrev main_call2_call0_cst_3 : Ref sig .tc := ⟨.hbm, 79, rfl⟩
abbrev main_call2_call0_v13 : Ref sig .tc := ⟨.hbm, 80, rfl⟩
abbrev main_call2_call0_cst_4 : Ref sig .tc := ⟨.hbm, 81, rfl⟩
abbrev main_call2_call0_call0_v0 : Ref sig .tc := ⟨.hbm, 82, rfl⟩
abbrev main_call2_call0_call0_v1 : Ref sig .tc := ⟨.hbm, 83, rfl⟩
abbrev main_call2_v0 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_8 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_c_9 : Ref sig .tc := ⟨.hbm, 94, rfl⟩
abbrev main_v33 : Ref sig .tc := ⟨.hbm, 95, rfl⟩
abbrev main_v34 : Ref sig .tc := ⟨.hbm, 96, rfl⟩
abbrev main_cst_10 : Ref sig .tc := ⟨.hbm, 97, rfl⟩
abbrev main_call3_v0 : Ref sig .tc := ⟨.hbm, 98, rfl⟩
abbrev main_v35 : Ref sig .tc := ⟨.hbm, 99, rfl⟩
abbrev main_cst_11 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_12 : Ref sig .tc := ⟨.hbm, 104, rfl⟩
abbrev main_v39 : Ref sig .tc := ⟨.hbm, 105, rfl⟩
abbrev main_cst_13 : Ref sig .tc := ⟨.hbm, 106, rfl⟩
abbrev main_v40 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_13 : BitVec 32 := 0#32
  let v26 : BitVec 1 := Scalar.cmpi .ne v25 c0_i32_13
  v26

def k0_cond2 (i : grid0.Coords) : BitVec 1 :=
  let arg1 : BitVec 32 := BitVec.ofNat 32 (i 1).val
  let c0_i32_14 : BitVec 32 := 0#32
  let v27 : BitVec 1 := Scalar.cmpi .sgt arg1 c0_i32_14
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S1024x3_S1024 : S1024x3.Reduces [1] S1024
  shapeCasts_S1024_S1024x1 : S1024.ShapeCasts S1024x1
  reduces_S3x4096_S4096 : S3x4096.Reduces [0] S4096
  shapeCasts_S4096_S1x4096 : S4096.ShapeCasts S1x4096
  broadcasts_S1024x1_S1024x4096 : S1024x1.Broadcasts S1024x4096
  broadcasts_S1x4096_S1024x4096 : S1x4096.Broadcasts S1024x4096
  reduces_S1024x4096_S1024 : S1024x4096.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x4096_S4096 : S1024x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  natLt_1_32 : 1 < 32
  bcast_S_S8x4096 : S_.BroadcastsInDim S8x4096 (![] : Fin 0 → Fin S8x4096.rank)
  reducesTo_S8_S_d0 : S8.ReducesTo [0] S_
  dot_S1024x3_S3x4096_S1024x4096_1_0_0_1_n_n_wf : DotDims.WF S1024x3 S3x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .f32 = 32 ∨ (Rect.block (s := S8x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x3_S3x4096_S1024x4096_1_0_0_1_n_n : DotDims S1024x3 S3x4096 S1024x4096 where
  lhsContracting := [1]
  rhsContracting := [0]
  lhsNonContracting := [0]
  rhsNonContracting := [1]
  lhsBatch := []
  rhsBatch := []
  wf := dot_S1024x3_S3x4096_S1024x4096_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩
abbrev S8x1 : Shape := ⟨2, ![8, 1]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S8x1, .f32⟩
  | .hbm, ⟨25, _⟩ => ⟨S_, .f32⟩
  | .hbm, ⟨26, _⟩ => ⟨S8x1, .f32⟩
  | .hbm, ⟨27, _⟩ => ⟨S8x1, .f32⟩
  | .hbm, ⟨28, _⟩ => ⟨S_, .i32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S_, .f32⟩
  | .hbm, ⟨33, _⟩ => ⟨S8x1, .f32⟩
  | .hbm, ⟨34, _⟩ => ⟨S8x1, .f32⟩
  | .hbm, ⟨35, _⟩ => ⟨S8x4096, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S8x1, .f32⟩
  | .hbm, ⟨51, _⟩ => ⟨S8x1, .f32⟩
  | .hbm, ⟨52, _⟩ => ⟨S8x1, .f32⟩
  | .hbm, ⟨53, _⟩ => ⟨S8x4096, .f32⟩
  | .hbm, ⟨54, _⟩ => ⟨S8x4096, .f32⟩
  | .hbm, ⟨55, _⟩ => ⟨S_, .f32⟩
  | .hbm, ⟨56, _⟩ => ⟨S8x1, .f32⟩
  | .hbm, ⟨57, _⟩ => ⟨S8x1, .f32⟩
  | .hbm, ⟨58, _⟩ => ⟨S8x4096, .f32⟩
  | .hbm, ⟨59, _⟩ => ⟨S8x4096, .i1⟩
  | .hbm, ⟨60, _⟩ => ⟨S8x4096, .i32⟩
  | .hbm, ⟨61, _⟩ => ⟨S_, .i32⟩
  | .hbm, ⟨62, _⟩ => ⟨S8, .i32⟩
  | .hbm, ⟨63, _⟩ => ⟨S8, .f32⟩
  | .hbm, ⟨64, _⟩ => ⟨S_, .f32⟩
  | .hbm, ⟨65, _⟩ => ⟨S8x4096, .f32⟩
  | .hbm, ⟨66, _⟩ => ⟨S8x4096, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8x1, .f32⟩
  | .hbm, ⟨73, _⟩ => ⟨S_, .f32⟩
  | .hbm, ⟨74, _⟩ => ⟨S8x1, .f32⟩
  | .hbm, ⟨75, _⟩ => ⟨S8x1, .f32⟩
  | .hbm, ⟨76, _⟩ => ⟨S_, .i32⟩
  | .hbm, ⟨77, _⟩ => ⟨S_, .f32⟩
  | .hbm, ⟨78, _⟩ => ⟨S8, .f32⟩
  | .hbm, ⟨79, _⟩ => ⟨S8x1, .f32⟩
  | .hbm, ⟨80, _⟩ => ⟨S_, .f32⟩
  | .hbm, ⟨81, _⟩ => ⟨S8x1, .f32⟩
  | .hbm, ⟨82, _⟩ => ⟨S8x1, .f32⟩
  | .hbm, ⟨83, _⟩ => ⟨S8x4096, .f32⟩
  | .hbm, ⟨84, _⟩ => ⟨S8x4096, .f32⟩
  | .hbm, ⟨85, _⟩ => ⟨S8x4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8, .f32⟩
  | .hbm, ⟨91, _⟩ => ⟨S8x1, .f32⟩
  | .hbm, ⟨92, _⟩ => ⟨S8x1, .f32⟩
  | .hbm, ⟨93, _⟩ => ⟨S8x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S8x1, .f32⟩
  | .hbm, ⟨99, _⟩ => ⟨S8x1, .f32⟩
  | .hbm, ⟨100, _⟩ => ⟨S8x1, .f32⟩
  | .hbm, ⟨101, _⟩ => ⟨S8x4096, .f32⟩
  | .hbm, ⟨102, _⟩ => ⟨S8x4096, .f32⟩
  | .hbm, ⟨103, _⟩ => ⟨S_, .f32⟩
  | .hbm, ⟨104, _⟩ => ⟨S8x1, .f32⟩
  | .hbm, ⟨105, _⟩ => ⟨S8x1, .f32⟩
  | .hbm, ⟨106, _⟩ => ⟨S8x4096, .f32⟩
  | .hbm, ⟨107, _⟩ => ⟨S8x4096, .i1⟩
  | .hbm, ⟨108, _⟩ => ⟨S8x4096, .i32⟩
  | .hbm, ⟨109, _⟩ => ⟨S_, .i32⟩
  | .hbm, ⟨110, _⟩ => ⟨S8, .i32⟩
  | .hbm, ⟨111, _⟩ => ⟨S8, .f32⟩
  | .hbm, ⟨112, _⟩ => ⟨S_, .f32⟩
  | .hbm, ⟨113, _⟩ => ⟨S8x4096, .f32⟩
  | .hbm, ⟨114, _⟩ => ⟨S8x4096, .f32⟩
  | .hbm, ⟨115, _⟩ => ⟨S_, .f32⟩
  | .hbm, ⟨116, _⟩ => ⟨S8, .f32⟩
  | .hbm, ⟨117, _⟩ => ⟨S8, .f32⟩
  | .hbm, ⟨118, _⟩ => ⟨S8, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_cst_0 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_cst_1 : Ref sig .tc := ⟨.hbm, 39, rfl⟩
abbrev main_call0_call0_v8 : Ref sig .tc := ⟨.hbm, 40, rfl⟩
abbrev main_call0_call0_cst_2 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_cst_3 : Ref sig .tc := ⟨.hbm, 46, rfl⟩
abbrev main_call0_call0_v13 : Ref sig .tc := ⟨.hbm, 47, rfl⟩
abbrev main_call0_call0_cst_4 : Ref sig .tc := ⟨.hbm, 48, rfl⟩
abbrev main_call0_call0_call0_v0 : Ref sig .tc := ⟨.hbm, 49, rfl⟩
abbrev main_call0_call0_call0_v1 : Ref sig .tc := ⟨.hbm, 50, rfl⟩
abbrev main_call0_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_6 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_7 : Ref sig .tc := ⟨.hbm, 61, rfl⟩
abbrev main_v27 : Ref sig .tc := ⟨.hbm, 62, rfl⟩
abbrev main_v28 : Ref sig .tc := ⟨.hbm, 63, rfl⟩
abbrev main_cst_8 : Ref sig .tc := ⟨.hbm, 64, rfl⟩
abbrev main_call1_v0 : Ref sig .tc := ⟨.hbm, 65, rfl⟩
abbrev main_v29 : Ref sig .tc := ⟨.hbm, 66, rfl⟩
abbrev main_cst_9 : Ref sig .tc := ⟨.hbm, 67, rfl⟩
abbrev main_v30 : Ref sig .tc := ⟨.hbm, 68, rfl⟩
abbrev main_v31 : Ref sig .tc := ⟨.hbm, 69, rfl⟩
abbrev main_cst_10 : Ref sig .tc := ⟨.hbm, 70, rfl⟩
abbrev main_v32 : Ref sig .tc := ⟨.hbm, 71, rfl⟩
abbrev main_v33 : Ref sig .tc := ⟨.hbm, 72, rfl⟩
abbrev main_cst_11 : Ref sig .tc := ⟨.hbm, 73, rfl⟩
abbrev main_v34 : Ref sig .tc := ⟨.hbm, 74, rfl⟩
abbrev main_v35 : Ref sig .tc := ⟨.hbm, 75, rfl⟩
abbrev main_c_12 : Ref sig .tc := ⟨.hbm, 76, rfl⟩
abbrev main_call2_call0_cst : Ref sig .tc := ⟨.hbm, 77, rfl⟩
abbrev main_call2_call0_v0 : Ref sig .tc := ⟨.hbm, 78, rfl⟩
abbrev main_call2_call0_v1 : Ref sig .tc := ⟨.hbm, 79, rfl⟩
abbrev main_call2_call0_cst_0 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_call0_v4 : Ref sig .tc := ⟨.hbm, 83, rfl⟩
abbrev main_call2_call0_v5 : Ref sig .tc := ⟨.hbm, 84, rfl⟩
abbrev main_call2_call0_v6 : Ref sig .tc := ⟨.hbm, 85, rfl⟩
abbrev main_call2_call0_v7 : Ref sig .tc := ⟨.hbm, 86, rfl⟩
abbrev main_call2_call0_cst_1 : Ref sig .tc := ⟨.hbm, 87, rfl⟩
abbrev main_call2_call0_v8 : Ref sig .tc := ⟨.hbm, 88, rfl⟩
abbrev main_call2_call0_cst_2 : Ref sig .tc := ⟨.hbm, 89, rfl⟩
abbrev main_call2_call0_v9 : Ref sig .tc := ⟨.hbm, 90, rfl⟩
abbrev main_call2_call0_v10 : Ref sig .tc := ⟨.hbm, 91, rfl⟩
abbrev main_call2_call0_v11 : Ref sig .tc := ⟨.hbm, 92, rfl⟩
abbrev main_call2_call0_v12 : Ref sig .tc := ⟨.hbm, 93, rfl⟩
abbrev main_call2_call0_cst_3 : Ref sig .tc := ⟨.hbm, 94, rfl⟩
abbrev main_call2_call0_v13 : Ref sig .tc := ⟨.hbm, 95, rfl⟩
abbrev main_call2_call0_cst_4 : Ref sig .tc := ⟨.hbm, 96, rfl⟩
abbrev main_call2_call0_call0_v0 : Ref sig .tc := ⟨.hbm, 97, rfl⟩
abbrev main_call2_call0_call0_v1 : Ref sig .tc := ⟨.hbm, 98, rfl⟩
abbrev main_call2_v0 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_cst_13 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_c_14 : Ref sig .tc := ⟨.hbm, 109, rfl⟩
abbrev main_v44 : Ref sig .tc := ⟨.hbm, 110, rfl⟩
abbrev main_v45 : Ref sig .tc := ⟨.hbm, 111, rfl⟩
abbrev main_cst_15 : Ref sig .tc := ⟨.hbm, 112, rfl⟩
abbrev main_call3_v0 : Ref sig .tc := ⟨.hbm, 113, rfl⟩
abbrev main_v46 : Ref sig .tc := ⟨.hbm, 114, rfl⟩
abbrev main_cst_16 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_17 : Ref sig .tc := ⟨.hbm, 119, rfl⟩
abbrev main_v50 : Ref sig .tc := ⟨.hbm, 120, rfl⟩
abbrev main_cst_18 : Ref sig .tc := ⟨.hbm, 121, rfl⟩
abbrev main_v51 : Ref sig .tc := ⟨.hbm, 122, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  natLt_1_32 : 1 < 32
  bcast_S_S8x4096 : S_.BroadcastsInDim S8x4096 (![] : Fin 0 → Fin S8x4096.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KBMain.lean ====
/-
  The program around its one kernel region: one host line before it (the transpose of the second point cloud to
  [8, 3, 4096]), the region, and the host lines after it in nine stretches (the two reshapes of the region's results and
  the masked means). None of the later lines writes an array the region stages, and no host line writes an argument.
-/
import proofs.«134267_j10625749090595_2_alg».proof.Proof.Gen.Kernel.Launch
import proofs.«134267_j10625749090595_2_alg».proof.Proof.Gen.Kernel.Skeleton
import proofs.«134267_j10625749090595_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch, in program order. -/
abbrev tailOps : List (List (HloOp τ sig (Elt F))) :=
  [hostOps1, hostOps1_1, hostOps1_2, hostOps1_3, hostOps1_4, hostOps1_5, hostOps1_6, hostOps1_7, hostOps1_8]

/-- The buffers' contents when the region is entered: after the one host line before it. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The program is the line before the region, the region, and the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array of the region: each writes its own result buffer. -/
theorem keeps_hostOps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_5 : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_6 : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_7 : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_8 : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- And so no later line writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop
  · exact keeps_hostOps1_7 op hop
  · exact keeps_hostOps1_8 op hop

/-- The transpose before the region writes its own buffer: the region finds the first point cloud as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    exact StableHlo.devRef_ne_of_ne (by decide)))
/-- The same for the second point cloud. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    exact StableHlo.devRef_ne_of_ne (by decide)))

/-- No line of this stretch writes the second point cloud. -/
theorem arg1_hostOps1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_1 : ∀ op ∈ (hostOps1_1 : List (HloOp τ sig (Elt F))), Proc.devRef .tc main_arg1 ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_2 : ∀ op ∈ (hostOps1_2 : List (HloOp τ sig (Elt F))), Proc.devRef .tc main_arg1 ∉ op.writes := by
  intro op hop
  simp only [hostOps1_2, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_3 : ∀ op ∈ (hostOps1_3 : List (HloOp τ sig (Elt F))), Proc.devRef .tc main_arg1 ∉ op.writes := by
  intro op hop
  simp only [hostOps1_3, List.mem_cons, List.mem_nil_iff, or_false] at hop
  rcases hop with rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_4 : ∀ op ∈ (hostOps1_4 : List (HloOp τ sig (Elt F))), Proc.devRef .tc main_arg1 ∉ op.writes := by
  intro op hop
  simp only [hostOps1_4, List.mem_cons, List.mem_nil_iff, or_false] at hop
  rcases hop with rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_5 : ∀ op ∈ (hostOps1_5 : List (HloOp τ sig (Elt F))), Proc.devRef .tc main_arg1 ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_6 : ∀ op ∈ (hostOps1_6 : List (HloOp τ sig (Elt F))), Proc.devRef .tc main_arg1 ∉ op.writes := by
  intro op hop
  simp only [hostOps1_6, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_7 : ∀ op ∈ (hostOps1_7 : List (HloOp τ sig (Elt F))), Proc.devRef .tc main_arg1 ∉ op.writes := by
  intro op hop
  simp only [hostOps1_7, List.mem_cons, List.mem_nil_iff, or_false] at hop
  rcases hop with rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_8 : ∀ op ∈ (hostOps1_8 : List (HloOp τ sig (Elt F))), Proc.devRef .tc main_arg1 ∉ op.writes := by
  intro op hop
  simp only [hostOps1_8, List.mem_cons, List.mem_nil_iff, or_false] at hop
  rcases hop with rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)

/-- No later line writes the second point cloud. -/
theorem arg1_tail : ∀ op ∈ (tailOps (F := F)).flatten, Proc.devRef .tc main_arg1 ∉ op.writes := by
  intro op hop
  simp only [tailOps, List.mem_flatten, List.mem_cons, List.mem_nil_iff, or_false] at hop
  obtain ⟨ops, hops, hop⟩ := hop
  rcases hops with rfl | rfl | rfl | rfl | rfl | rfl | rfl | rfl | rfl
  · exact arg1_hostOps1 op hop
  · exact arg1_hostOps1_1 op hop
  · exact arg1_hostOps1_2 op hop
  · exact arg1_hostOps1_3 op hop
  · exact arg1_hostOps1_4 op hop
  · exact arg1_hostOps1_5 op hop
  · exact arg1_hostOps1_6 op hop
  · exact arg1_hostOps1_7 op hop
  · exact arg1_hostOps1_8 op hop

/-- The second point cloud ends as launched: it is no array of the region and no line after the region writes it. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (arg1_tail),
    Pipeline.withArrays_of_ne _ c (V0 m c) _ main_arg1 (by exact (by decide : ∀ w, Pipeline.arrRef spec0 w ≠ main_arg1))]
  exact V_main_arg1 m c

end Cert.Kernel.Hand

end
-- ==== Proof.KBBody.lean ====
/-
  The kernel body at a grid point, and the frame run of the program.

  The grid is 8 batches by 4 row tiles. At every point the body reads a tile of 1024 rows of the first point cloud
  (window 0) and one whole batch of the transposed second cloud (window 1), forms the 1024 x 4096 block of squared
  distances, writes its row minima to window 2 (final for that tile) and folds its column minima into window 3:
  at the first tile of a batch (`t % 4 = 0`) the column minima are stored, at the later tiles the minimum of the stored
  row and the new column minima is stored. Window 3's block does not move within a batch, so its buffer carries the
  running minimum from tile to tile and is written back after the fourth.
-/
import proofs.«134267_j10625749090595_2_alg».proof.Proof.Gen.Kernel.Launch
import proofs.«134267_j10625749090595_2_alg».proof.Proof.Gen.Kernel.Skeleton
import proofs.«134267_j10625749090595_2_alg».proof.Proof.Gen.Kernel.Points
import proofs.«134267_j10625749090595_2_alg».proof.Proof.KBMain
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- The first conditional (row tile 0) is taken exactly at the points ≡ 0 (mod 4), -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second (a later row tile) exactly at the others. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-! ## The body's triple, at the first tile of a batch and at a later one -/

set_option maxHeartbeats 1000000 in
/-- At the first row tile: the row minima go to window 2's buffer, the column minima to window 3's, whatever
    either held. -/
theorem kernel_first (c : Dev nD) (E : Set ℕ) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x1024x3 .f32) (x1 : Vec F S1x3x4096 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x1024x1_S1x1024x1_0_0_0 y⟩),
      View.canon_unit_zero hz3]
    simp only [View.readAt_eq_ld, View.ld_unit_zero (S := S1x1024x3) hz3, View.ld_unit_zero (S := S1x3x4096) hz3]
  · iexists _; isplitr
    swap; · iexact H3
    ipureintro
    rw [View.read_writes_eq_canon _ _ _ (fun y => ⟨_, List.mem_singleton_self _, View.mem_set_unit_zero hz3 inb_S1x1x4096_S1x1x4096_0_0_0 y⟩),
      View.canon_unit_zero hz3]
    simp only [View.readAt_eq_ld, View.ld_unit_zero (S := S1x1024x3) hz3, View.ld_unit_zero (S := S1x3x4096) hz3]

set_option maxHeartbeats 1000000 in
/-- At a later row tile: the row minima go to window 2's buffer, and window 3's buffer, holding the running column
    minima `xo`, ends at their minimum with the new ones. -/
theorem kernel_later (c : Dev nD) (E : Set ℕ) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x1024x3 .f32) (x1 : Vec F S1x3x4096 .f32) (xo : Vec F S1x1x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 xo)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x1024x1_S1x1024x1_0_0_0 y⟩),
      View.canon_unit_zero hz3]
    simp only [View.readAt_eq_ld, View.ld_unit_zero (S := S1x1024x3) hz3, View.ld_unit_zero (S := S1x3x4096) hz3]
  · iexists _; isplitr
    swap; · iexact H3
    ipureintro
    rw [View.read_writes_eq_canon _ _ _ (fun y => ⟨_, List.mem_singleton_self _, View.mem_set_unit_zero hz3 inb_S1x1x4096_S1x1x4096_0_0_0 y⟩),
      View.canon_unit_zero hz3]
    simp only [View.readAt_eq_ld, View.ld_unit_zero (S := S1x1024x3) hz3, View.ld_unit_zero (S := S1x3x4096) hz3,
      View.ld_unit_zero (S := S1x1x4096) hz3]

/-! ## The windows' blocks and the running column minima -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What window 3's buffer holds after the body at position `n`: the column minima of the tile at the first tile of a
    batch, their minimum with what the tile before left at a later one. -/
def colMin (c : Dev nD) : (n : ℕ) → n < cfg0.N → Vec F S1x1x4096 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (colMin c n (Nat.lt_of_succ_lt hn))

theorem colMin_first (c : Dev nD) (t : Fin cfg0.N) (h0 : t.val % 4 = 0) :
    colMin m c t.val t.isLt = k0_pay4 (iblk m c 0 t) (iblk m c 1 t) := by
  obtain ⟨n, hn⟩ := t
  cases n with
  | zero => exact rfl
  | succ n => exact (if_pos h0).trans rfl

theorem colMin_later (c : Dev nD) (t : Fin cfg0.N) (h0 : ¬t.val % 4 = 0) :
    colMin m c t.val t.isLt = k0_pay5 (iblk m c 0 t) (iblk m c 1 t) (colMin m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The proof data -/

/-- The arrays as the region finds them; after the body each input's buffer at its block, window 2's at the row
    minima of the point's tile, window 3's at the running column minima. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => colMin m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (iblk m c 1 t) := by dsimp only [dats]
theorem after0_3 (c : Dev nD) (t : Fin cfg0.N) : (dats m 0 c).after 3 t = colMin m c t.val t.isLt := by dsimp only [dats]

/-- Each input's current buffer holds its block at every point, fetched there or not (window 1 is fetched at the
    first tile of a batch only: its block does not move within the batch). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Window 3 is live at every point: one of the two conditionals is taken. -/
theorem live3 (i : grid0.Coords) : cfg0.idle 3 i = false := by
  show (!(k0_cond1 i == 1#1) && !(k0_cond2 i == 1#1)) = false
  unfold k0_cond1 k0_cond2
  have h := (i 1).isLt
  generalize (i 1).val = v at h ⊢
  have h4 : v = 0 ∨ v = 1 ∨ v = 2 ∨ v = 3 := by have h' : v < 4 := h; omega
  rcases h4 with rfl | rfl | rfl | rfl <;> decide

/-- At a later tile of a batch window 3's buffer holds what the tile before left: it was not written back between. -/
theorem before0_3_later (c : Dev nD) (t : Fin cfg0.N) (h0 : ¬t.val % 4 = 0) (d) :
    (dats m 0 c).before 3 t d = colMin m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (live3) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

set_option maxHeartbeats 800000 in
/-- The body at any point: the inputs' buffers hold their blocks; the point is a first tile or a later one, and at a
    later one window 3's buffer holds the running minima; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).leavesExact 3 t = owns (c : Thread nD τ) (st0_3 t) fullShare ((dats m 0 c).after 3 t) from by
    unfold Dat.leavesExact; rw [live3 (grid0.coords t)]]
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [colMin_first m c t h0]
    iintro ⟨HΦ, Ho, ⟨%d0, H0⟩, ⟨%d1, H1⟩, ⟨%d2, H2⟩, ⟨%d3, H3⟩⟩
    iapply (kernel_first c Set.univ (grid0.coords t) _ _ _ _ _ _ _ _ ((hcond1 t).mpr h0) (fun h => (hcond2 t).mp h h0) (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colMin_later m c t h0]
    simp only [before0_3_later m c t h0]
    iintro ⟨HΦ, Ho, ⟨%d0, H0⟩, ⟨%d1, H1⟩, ⟨%d2, H2⟩, ⟨%d3, H3⟩⟩
    iapply (kernel_later c Set.univ (grid0.coords t) _ _ _ _ _ _ _ _ (fun h => h0 ((hcond1 t).mp h)) ((hcond2 t).mpr h0) (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

end Cert.Kernel.Hand

end
-- ==== Proof.KBRun.lean ====
/-
  The frame run of the program: the body obligation at every grid point, the launch of the region between the host
  lines, and the frame (both point clouds end as launched).
-/
import proofs.«134267_j10625749090595_2_alg».proof.Proof.Gen.Kernel.Launch
import proofs.«134267_j10625749090595_2_alg».proof.Proof.Gen.Kernel.Skeleton
import proofs.«134267_j10625749090595_2_alg».proof.Proof.Gen.Kernel.Points
import proofs.«134267_j10625749090595_2_alg».proof.Proof.KBBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, with every array of the region at what the proof data
    give and every other buffer as the later host lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end and leaves both point clouds as launched (the first is an input array
    of the region, the second an array no window stages and no host line writes). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩) (run_main m ρ)

end Cert.Kernel.Hand

end
-- ==== Proof.KIMain.lean ====
/-
  The program around its one kernel region: one host line before it (the transpose of the second point cloud to
  [8, 3, 4096]), the region, and the host lines after it in nine stretches (the two reshapes of the region's results and
  the masked means). None of the later lines writes an array the region stages, and no host line writes an argument.
-/
import proofs.«134267_j10625749090595_2_alg».proof.Proof.Gen.KernelIdeal.Launch
import proofs.«134267_j10625749090595_2_alg».proof.Proof.Gen.KernelIdeal.Skeleton
import proofs.«134267_j10625749090595_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch, in program order. -/
abbrev tailOps : List (List (HloOp τ sig (Elt F))) :=
  [hostOps1, hostOps1_1, hostOps1_2, hostOps1_3, hostOps1_4, hostOps1_5, hostOps1_6, hostOps1_7, hostOps1_8]

/-- The buffers' contents when the region is entered: after the one host line before it. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The program is the line before the region, the region, and the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array of the region: each writes its own result buffer. -/
theorem keeps_hostOps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_5 : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_6 : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_7 : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No line of this stretch writes an array of the region: each writes its own result buffer. -/
theorem keeps_hostOps1_8 : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- And so no later line writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop
  · exact keeps_hostOps1_7 op hop
  · exact keeps_hostOps1_8 op hop

/-- The transpose before the region writes its own buffer: the region finds the first point cloud as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    exact StableHlo.devRef_ne_of_ne (by decide)))
/-- The same for the second point cloud. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    exact StableHlo.devRef_ne_of_ne (by decide)))

/-- No line of this stretch writes the second point cloud. -/
theorem arg1_hostOps1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_1 : ∀ op ∈ (hostOps1_1 : List (HloOp τ sig (Elt F))), Proc.devRef .tc main_arg1 ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_2 : ∀ op ∈ (hostOps1_2 : List (HloOp τ sig (Elt F))), Proc.devRef .tc main_arg1 ∉ op.writes := by
  intro op hop
  simp only [hostOps1_2, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_3 : ∀ op ∈ (hostOps1_3 : List (HloOp τ sig (Elt F))), Proc.devRef .tc main_arg1 ∉ op.writes := by
  intro op hop
  simp only [hostOps1_3, List.mem_cons, List.mem_nil_iff, or_false] at hop
  rcases hop with rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_4 : ∀ op ∈ (hostOps1_4 : List (HloOp τ sig (Elt F))), Proc.devRef .tc main_arg1 ∉ op.writes := by
  intro op hop
  simp only [hostOps1_4, List.mem_cons, List.mem_nil_iff, or_false] at hop
  rcases hop with rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_5 : ∀ op ∈ (hostOps1_5 : List (HloOp τ sig (Elt F))), Proc.devRef .tc main_arg1 ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_6 : ∀ op ∈ (hostOps1_6 : List (HloOp τ sig (Elt F))), Proc.devRef .tc main_arg1 ∉ op.writes := by
  intro op hop
  simp only [hostOps1_6, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_7 : ∀ op ∈ (hostOps1_7 : List (HloOp τ sig (Elt F))), Proc.devRef .tc main_arg1 ∉ op.writes := by
  intro op hop
  simp only [hostOps1_7, List.mem_cons, List.mem_nil_iff, or_false] at hop
  rcases hop with rfl | rfl
  all_goals simp only [StableHlo.nullary_writes, StableHlo.unary_writes, StableHlo.binary_writes, StableHlo.ternary_writes, StableHlo.reshape_writes, Finset.mem_singleton] <;> exact StableHlo.devRef_ne_of_ne (by decide)
/-- No line of this stretch writes the second point cloud. -/
theorem arg1_hostOps1_8 : ∀ op ∈ (hostOps1_8 : List (HloOp τ sig (Elt F))), Proc.devRef .tc main_arg1 ∉ op.writes := by
  intro op hop
  simp only [hostOps1_8, List.mem_cons, List.mem_nil_iff, or_false] at hop
  rcases hop with rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)

/-- No later line writes the second point cloud. -/
theorem arg1_tail : ∀ op ∈ (tailOps (F := F)).flatten, Proc.devRef .tc main_arg1 ∉ op.writes := by
  intro op hop
  simp only [tailOps, List.mem_flatten, List.mem_cons, List.mem_nil_iff, or_false] at hop
  obtain ⟨ops, hops, hop⟩ := hop
  rcases hops with rfl | rfl | rfl | rfl | rfl | rfl | rfl | rfl | rfl
  · exact arg1_hostOps1 op hop
  · exact arg1_hostOps1_1 op hop
  · exact arg1_hostOps1_2 op hop
  · exact arg1_hostOps1_3 op hop
  · exact arg1_hostOps1_4 op hop
  · exact arg1_hostOps1_5 op hop
  · exact arg1_hostOps1_6 op hop
  · exact arg1_hostOps1_7 op hop
  · exact arg1_hostOps1_8 op hop

/-- The second point cloud ends as launched: it is no array of the region and no line after the region writes it. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (arg1_tail),
    Pipeline.withArrays_of_ne _ c (V0 m c) _ main_arg1 (by exact (by decide : ∀ w, Pipeline.arrRef spec0 w ≠ main_arg1))]
  exact V_main_arg1 m c

end Cert.KernelIdeal.Hand

end
-- ==== Proof.KIBody.lean ====
/-
  The kernel body at a grid point, and the frame run of the program.

  The grid is 8 batches by 4 row tiles. At every point the body reads a tile of 1024 rows of the first point cloud
  (window 0) and one whole batch of the transposed second cloud (window 1), forms the 1024 x 4096 block of squared
  distances, writes its row minima to window 2 (final for that tile) and folds its column minima into window 3:
  at the first tile of a batch (`t % 4 = 0`) the column minima are stored, at the later tiles the minimum of the stored
  row and the new column minima is stored. Window 3's block does not move within a batch, so its buffer carries the
  running minimum from tile to tile and is written back after the fourth.
-/
import proofs.«134267_j10625749090595_2_alg».proof.Proof.Gen.KernelIdeal.Launch
import proofs.«134267_j10625749090595_2_alg».proof.Proof.Gen.KernelIdeal.Skeleton
import proofs.«134267_j10625749090595_2_alg».proof.Proof.Gen.KernelIdeal.Points
import proofs.«134267_j10625749090595_2_alg».proof.Proof.KIMain
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- The first conditional (row tile 0) is taken exactly at the points ≡ 0 (mod 4), -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second (a later row tile) exactly at the others. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-! ## The body's triple, at the first tile of a batch and at a later one -/

set_option maxHeartbeats 1000000 in
/-- At the first row tile: the row minima go to window 2's buffer, the column minima to window 3's, whatever
    either held. -/
theorem kernel_first (c : Dev nD) (E : Set ℕ) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x1024x3 .f32) (x1 : Vec F S1x3x4096 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x1024x1_S1x1024x1_0_0_0 y⟩),
      View.canon_unit_zero hz3]
    simp only [View.readAt_eq_ld, View.ld_unit_zero (S := S1x1024x3) hz3, View.ld_unit_zero (S := S1x3x4096) hz3]
  · iexists _; isplitr
    swap; · iexact H3
    ipureintro
    rw [View.read_writes_eq_canon _ _ _ (fun y => ⟨_, List.mem_singleton_self _, View.mem_set_unit_zero hz3 inb_S1x1x4096_S1x1x4096_0_0_0 y⟩),
      View.canon_unit_zero hz3]
    simp only [View.readAt_eq_ld, View.ld_unit_zero (S := S1x1024x3) hz3, View.ld_unit_zero (S := S1x3x4096) hz3]

set_option maxHeartbeats 1000000 in
/-- At a later row tile: the row minima go to window 2's buffer, and window 3's buffer, holding the running column
    minima `xo`, ends at their minimum with the new ones. -/
theorem kernel_later (c : Dev nD) (E : Set ℕ) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x1024x3 .f32) (x1 : Vec F S1x3x4096 .f32) (xo : Vec F S1x1x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 xo)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x1024x1_S1x1024x1_0_0_0 y⟩),
      View.canon_unit_zero hz3]
    simp only [View.readAt_eq_ld, View.ld_unit_zero (S := S1x1024x3) hz3, View.ld_unit_zero (S := S1x3x4096) hz3]
  · iexists _; isplitr
    swap; · iexact H3
    ipureintro
    rw [View.read_writes_eq_canon _ _ _ (fun y => ⟨_, List.mem_singleton_self _, View.mem_set_unit_zero hz3 inb_S1x1x4096_S1x1x4096_0_0_0 y⟩),
      View.canon_unit_zero hz3]
    simp only [View.readAt_eq_ld, View.ld_unit_zero (S := S1x1024x3) hz3, View.ld_unit_zero (S := S1x3x4096) hz3,
      View.ld_unit_zero (S := S1x1x4096) hz3]

/-! ## The windows' blocks and the running column minima -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What window 3's buffer holds after the body at position `n`: the column minima of the tile at the first tile of a
    batch, their minimum with what the tile before left at a later one. -/
def colMin (c : Dev nD) : (n : ℕ) → n < cfg0.N → Vec F S1x1x4096 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (colMin c n (Nat.lt_of_succ_lt hn))

theorem colMin_first (c : Dev nD) (t : Fin cfg0.N) (h0 : t.val % 4 = 0) :
    colMin m c t.val t.isLt = k0_pay4 (iblk m c 0 t) (iblk m c 1 t) := by
  obtain ⟨n, hn⟩ := t
  cases n with
  | zero => exact rfl
  | succ n => exact (if_pos h0).trans rfl

theorem colMin_later (c : Dev nD) (t : Fin cfg0.N) (h0 : ¬t.val % 4 = 0) :
    colMin m c t.val t.isLt = k0_pay5 (iblk m c 0 t) (iblk m c 1 t) (colMin m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The proof data -/

/-- The arrays as the region finds them; after the body each input's buffer at its block, window 2's at the row
    minima of the point's tile, window 3's at the running column minima. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => colMin m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (iblk m c 1 t) := by dsimp only [dats]
theorem after0_3 (c : Dev nD) (t : Fin cfg0.N) : (dats m 0 c).after 3 t = colMin m c t.val t.isLt := by dsimp only [dats]

/-- Each input's current buffer holds its block at every point, fetched there or not (window 1 is fetched at the
    first tile of a batch only: its block does not move within the batch). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Window 3 is live at every point: one of the two conditionals is taken. -/
theorem live3 (i : grid0.Coords) : cfg0.idle 3 i = false := by
  show (!(k0_cond1 i == 1#1) && !(k0_cond2 i == 1#1)) = false
  unfold k0_cond1 k0_cond2
  have h := (i 1).isLt
  generalize (i 1).val = v at h ⊢
  have h4 : v = 0 ∨ v = 1 ∨ v = 2 ∨ v = 3 := by have h' : v < 4 := h; omega
  rcases h4 with rfl | rfl | rfl | rfl <;> decide

/-- At a later tile of a batch window 3's buffer holds what the tile before left: it was not written back between. -/
theorem before0_3_later (c : Dev nD) (t : Fin cfg0.N) (h0 : ¬t.val % 4 = 0) (d) :
    (dats m 0 c).before 3 t d = colMin m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (live3) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

set_option maxHeartbeats 800000 in
/-- The body at any point: the inputs' buffers hold their blocks; the point is a first tile or a later one, and at a
    later one window 3's buffer holds the running minima; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).leavesExact 3 t = owns (c : Thread nD τ) (st0_3 t) fullShare ((dats m 0 c).after 3 t) from by
    unfold Dat.leavesExact; rw [live3 (grid0.coords t)]]
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [colMin_first m c t h0]
    iintro ⟨HΦ, Ho, ⟨%d0, H0⟩, ⟨%d1, H1⟩, ⟨%d2, H2⟩, ⟨%d3, H3⟩⟩
    iapply (kernel_first c Set.univ (grid0.coords t) _ _ _ _ _ _ _ _ ((hcond1 t).mpr h0) (fun h => (hcond2 t).mp h h0) (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colMin_later m c t h0]
    simp only [before0_3_later m c t h0]
    iintro ⟨HΦ, Ho, ⟨%d0, H0⟩, ⟨%d1, H1⟩, ⟨%d2, H2⟩, ⟨%d3, H3⟩⟩
    iapply (kernel_later c Set.univ (grid0.coords t) _ _ _ _ _ _ _ _ (fun h => h0 ((hcond1 t).mp h)) ((hcond2 t).mpr h0) (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

end Cert.KernelIdeal.Hand

end
-- ==== Proof.KIRun.lean ====
/-
  The frame run of the program: the body obligation at every grid point, the launch of the region between the host
  lines, and the frame (both point clouds end as launched).
-/
import proofs.«134267_j10625749090595_2_alg».proof.Proof.Gen.KernelIdeal.Launch
import proofs.«134267_j10625749090595_2_alg».proof.Proof.Gen.KernelIdeal.Skeleton
import proofs.«134267_j10625749090595_2_alg».proof.Proof.Gen.KernelIdeal.Points
import proofs.«134267_j10625749090595_2_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, with every array of the region at what the proof data
    give and every other buffer as the later host lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end and leaves both point clouds as launched (the first is an input array
    of the region, the second an array no window stages and no host line writes). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩) (run_main m ρ)

end Cert.KernelIdeal.Hand

end
-- ==== Proof.RefRun.lean ====
/-
  The reference program as one straight line of host operations.

  Its @main is 69 operations of its own and four calls of module-local functions: twice the unbiased standard
  deviation of the rows of an [8, 4096] array (a variance with its guard on the degrees of freedom, then a square
  root), twice a select against a broadcast zero. A call executes the callee's body on the operands, so each
  call stands here as the callee's operations over that call's own buffers, in the callee's order: 121
  operations in all. They are listed in thirteen stretches, cut where a call begins and ends, and grouped by what
  they compute: the two arrays of least squared distances (statements %0 … %14), the masked mean of the first
  (%15 … %31), the masked mean of the second (%32 … %48), and the batch average of their sum (%49 … %51).
-/
import proofs.«134267_j10625749090595_2_alg».proof.Proof.Gen.ReferenceIdeal
import Idealize.ShloMosaic.Lib.StableHlo.Run
import Idealize.ShloMosaic.Lib.Pipeline.Regions
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The operations, stretch by stretch -/

/-- Statements %0 … %14: the squared norms, the inner products, the squared distances and their two row-wise and column-wise minima. -/
abbrev o1 : List (HloOp τ sig (Elt F)) :=
  [ StableHlo.binary main_arg0 main_arg0 main_v0 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst (constant S_ .f32 0x00000000#32),
    StableHlo.binary main_v0 main_cst main_v1 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_arg1 main_arg1 main_v2 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst_0 (constant S_ .f32 0x00000000#32),
    StableHlo.binary main_v2 main_cst_0 main_v3 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_arg0 main_arg1 main_v4 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    StableHlo.unary main_v1 main_v5 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v3 main_v6 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v5 main_v7 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.unary main_v6 main_v8 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    StableHlo.binary main_v7 main_v8 main_v9 (addf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_1 (constant S_ .f32 0x40000000#32),
    StableHlo.unary main_cst_1 main_v10 (broadcastInDim S8x4096x4096 ![] bcast_S_S8x4096x4096 : (⟨S_, .f32⟩ : BufTy).Contents (Elt F) → (⟨S8x4096x4096, .f32⟩ : BufTy).Contents (Elt F)),
    StableHlo.binary main_v10 main_v4 main_v11 (mulf : (⟨S8x4096x4096, .f32⟩ : BufTy).Contents (Elt F) → (⟨S8x4096x4096, .f32⟩ : BufTy).Contents (Elt F) → (⟨S8x4096x4096, .f32⟩ : BufTy).Contents (Elt F)),
    StableHlo.binary main_v9 main_v11 main_v12 (subf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_2 (constant S_ .f32 0x7F800000#32),
    StableHlo.binary main_v12 main_cst_2 main_v13 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.nullary main_cst_3 (constant S_ .f32 0x7F800000#32),
    StableHlo.binary main_v12 main_cst_3 main_v14 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)) ]
theorem o1_sub : (o1 : List (HloOp τ sig (Elt F))).Forall fun op => op.bufs ⊆ StableHlo.tcRefs τ sig :=
  ⟨StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub ..⟩
theorem o1_fresh : (o1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Statements %15 … %18 and the degrees-of-freedom offset: the row means of the first distance array. -/
abbrev o2 : List (HloOp τ sig (Elt F)) :=
  [ StableHlo.nullary main_cst_4 (constant S_ .f32 0x00000000#32),
    StableHlo.binary main_v13 main_cst_4 main_v15 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    StableHlo.unary main_v15 main_v16 (broadcastInDim S8x1 ![0] bcast_S8_S8x1_0 : (⟨S8, .f32⟩ : BufTy).Contents (Elt F) → (⟨S8x1, .f32⟩ : BufTy).Contents (Elt F)),
    StableHlo.nullary main_cst_5 (constant S_ .f32 0x45800000#32),
    StableHlo.unary main_cst_5 main_v17 (broadcastInDim S8x1 ![] bcast_S_S8x1 : (⟨S_, .f32⟩ : BufTy).Contents (Elt F) → (⟨S8x1, .f32⟩ : BufTy).Contents (Elt F)),
    StableHlo.binary main_v16 main_v17 main_v18 (Host.divf : (⟨S8x1, .f32⟩ : BufTy).Contents (Elt F) → (⟨S8x1, .f32⟩ : BufTy).Contents (Elt F) → (⟨S8x1, .f32⟩ : BufTy).Contents (Elt F)),
    StableHlo.nullary main_c (constantI S_ 32 1#32) ]
theorem o2_sub : (o2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem o2_fresh : (o2 : List (HloOp τ sig (Elt F))).Forall fun op => op.fresh = ∅ :=
  ⟨rfl, rfl, rfl, rfl, rfl, rfl, rfl⟩

/-- The first call of the standard deviation (statement %19), its variance and the variance's guard inlined. -/
abbrev o3 : List (HloOp τ sig (Elt F)) :=
  [ StableHlo.TRef.nullary (.of main_call0_call0_cst : StableHlo.TRef sig ⟨S_, .f32⟩) (constant S_ .f32 0x00000000#32),
    StableHlo.TRef.binary (.of main_v13 : StableHlo.TRef sig ⟨S8x4096, .f32⟩) (.of main_call0_call0_cst : StableHlo.TRef sig ⟨S_, .f32⟩) (.of main_call0_call0_v0 : StableHlo.TRef sig ⟨S8, .f32⟩) (fun x v => Host.reduceAdd x v reducesTo_S8x4096_S8_d1 h_S_),
    StableHlo.TRef.unary (.of main_call0_call0_v0 : StableHlo.TRef sig ⟨S8, .f32⟩) (.of main_call0_call0_v1 : StableHlo.TRef sig ⟨S8x1, .f32⟩) (broadcastInDim S8x1 ![0] bcast_S8_S8x1_0),
    StableHlo.TRef.nullary (.of main_call0_call0_cst_0 : StableHlo.TRef sig ⟨S_, .f32⟩) (constant S_ .f32 0x45800000#32),
    StableHlo.TRef.unary (.of main_call0_call0_cst_0 : StableHlo.TRef sig ⟨S_, .f32⟩) (.of main_call0_call0_v2 : StableHlo.TRef sig ⟨S8x1, .f32⟩) (broadcastInDim S8x1 ![] bcast_S_S8x1),
    StableHlo.TRef.binary (.of main_call0_call0_v1 : StableHlo.TRef sig ⟨S8x1, .f32⟩) (.of main_call0_call0_v2 : StableHlo.TRef sig ⟨S8x1, .f32⟩) (.of main_call0_call0_v3 : StableHlo.TRef sig ⟨S8x1, .f32⟩) Host.divf,
    StableHlo.TRef.unary (.of main_call0_call0_v3 : StableHlo.TRef sig ⟨S8x1, .f32⟩) (.of main_call0_call0_v4 : StableHlo.TRef sig ⟨S8x4096, .f32⟩) (broadcastInDim S8x4096 ![0, 1] bcast_S8x1_S8x4096_0_1),
    StableHlo.TRef.binary (.of main_v13 : StableHlo.TRef sig ⟨S8x4096, .f32⟩) (.of main_call0_call0_v4 : StableHlo.TRef sig ⟨S8x4096, .f32⟩) (.of main_call0_call0_v5 : StableHlo.TRef sig ⟨S8x4096, .f32⟩) subf,
    StableHlo.TRef.binary (.of main_call0_call0_v5 : StableHlo.TRef sig ⟨S8x4096, .f32⟩) (.of main_call0_call0_v5 : StableHlo.TRef sig ⟨S8x4096, .f32⟩) (.of main_call0_call0_v6 : StableHlo.TRef sig ⟨S8x4096, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x45800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S8x4096, .f32⟩) (.of main_call0_call0_cst_2 : StableHlo.TRef sig ⟨S_, .f32⟩) (.of main_call0_call0_v9 : StableHlo.TRef sig ⟨S8, .f32⟩) (fun x v => Host.reduceAdd x v reducesTo_S8x4096_S8_d1 h_S_),
    StableHlo.TRef.unary (.of main_call0_call0_v9 : StableHlo.TRef sig ⟨S8, .f32⟩) (.of main_call0_call0_v10 : StableHlo.TRef sig ⟨S8x1, .f32⟩) (broadcastInDim S8x1 ![0] bcast_S8_S8x1_0),
    StableHlo.TRef.unary (.of main_call0_call0_v8 : StableHlo.TRef sig ⟨S_, .f32⟩) (.of main_call0_call0_v11 : StableHlo.TRef sig ⟨S8x1, .f32⟩) (broadcastInDim S8x1 ![] bcast_S_S8x1),
    StableHlo.TRef.binary (.of main_call0_call0_v10 : StableHlo.TRef sig ⟨S8x1, .f32⟩) (.of main_call0_call0_v11 : StableHlo.TRef sig ⟨S8x1, .f32⟩) (.of main_call0_call0_v12 : StableHlo.TRef sig ⟨S8x1, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v13 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.unary (.of main_call0_call0_call0_v0 : StableHlo.TRef sig ⟨S_, .f32⟩) (.of main_call0_call0_call0_v1 : StableHlo.TRef sig ⟨S8x1, .f32⟩) (broadcastInDim S8x1 ![] bcast_S_S8x1),
    StableHlo.TRef.ternary (.of main_call0_call0_v13 : StableHlo.TRef sig ⟨S_, .i1⟩) (.of main_call0_call0_v12 : StableHlo.TRef sig ⟨S8x1, .f32⟩) (.of main_call0_call0_call0_v1 : StableHlo.TRef sig ⟨S8x1, .f32⟩) (.of main_call0_v0 : StableHlo.TRef sig ⟨S8x1, .f32⟩) (fun p a b => select (broadcastInDim S8x1 ![] bcast_S_S8x1 p) a b),
    StableHlo.TRef.unary (.of main_call0_v0 : StableHlo.TRef sig ⟨S8x1, .f32⟩) (.of main_v19 : StableHlo.TRef sig ⟨S8x1, .f32⟩) Host.sqrt ]
theorem o3_sub : (o3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩
theorem o3_fresh : (o3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Statements %20 … %28: the deviations from the mean, the threshold, the mask and its count. -/
abbrev o4 : List (HloOp τ sig (Elt F)) :=
  [ StableHlo.unary main_v18 main_v20 (broadcastInDim S8x4096 ![0, 1] bcast_S8x1_S8x4096_0_1 : (⟨S8x1, .f32⟩ : BufTy).Contents (Elt F) → (⟨S8x4096, .f32⟩ : BufTy).Contents (Elt F)),
    StableHlo.binary main_v13 main_v20 main_v21 (subf : (⟨S8x4096, .f32⟩ : BufTy).Contents (Elt F) → (⟨S8x4096, .f32⟩ : BufTy).Contents (Elt F) → (⟨S8x4096, .f32⟩ : BufTy).Contents (Elt F)),
    StableHlo.nullary main_cst_6 (constant S_ .f32 0xBF000000#32),
    StableHlo.unary main_cst_6 main_v22 (broadcastInDim S8x1 ![] bcast_S_S8x1 : (⟨S_, .f32⟩ : BufTy).Contents (Elt F) → (⟨S8x1, .f32⟩ : BufTy).Contents (Elt F)),
    StableHlo.binary main_v22 main_v19 main_v23 (mulf : (⟨S8x1, .f32⟩ : BufTy).Contents (Elt F) → (⟨S8x1, .f32⟩ : BufTy).Contents (Elt F) → (⟨S8x1, .f32⟩ : BufTy).Contents (Elt F)),
    StableHlo.unary main_v23 main_v24 (broadcastInDim S8x4096 ![0, 1] bcast_S8x1_S8x4096_0_1 : (⟨S8x1, .f32⟩ : BufTy).Contents (Elt F) → (⟨S8x4096, .f32⟩ : BufTy).Contents (Elt F)),
    StableHlo.binary main_v21 main_v24 main_v25 (cmpf .ogt : (⟨S8x4096, .f32⟩ : BufTy).Contents (Elt F) → (⟨S8x4096, .f32⟩ : BufTy).Contents (Elt F) → (⟨S8x4096, .i1⟩ : BufTy).Contents (Elt F)),
    StableHlo.unary main_v25 main_v26 ((extui 32 · natLt_1_32) : (⟨S8x4096, .i1⟩ : BufTy).Contents (Elt F) → (⟨S8x4096, .i32⟩ : BufTy).Contents (Elt F)),
    StableHlo.nullary main_c_7 (constantI S_ 32 0#32),
    StableHlo.binary main_v26 main_c_7 main_v27 ((fun x v => Host.reduce IntOp.addi x v reducesTo_S8x4096_S8_d1 h_S_) : (⟨S8x4096, .i32⟩ : BufTy).Contents (Elt F) → (⟨S_, .i32⟩ : BufTy).Contents (Elt F) → (⟨S8, .i32⟩ : BufTy).Contents (Elt F)),
    StableHlo.unary main_v27 main_v28 (sitofp .f32 : (⟨S8, .i32⟩ : BufTy).Contents (Elt F) → (⟨S8, .f32⟩ : BufTy).Contents (Elt F)),
    StableHlo.nullary main_cst_8 (constant S_ .f32 0x00000000#32) ]
theorem o4_sub : (o4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub ..⟩
theorem o4_fresh : (o4 : List (HloOp τ sig (Elt F))).Forall fun op => op.fresh = ∅ :=
  ⟨rfl, rfl, rfl, rfl, rfl, rfl, rfl, rfl, rfl, rfl, rfl, rfl⟩

/-- The first select against zero (statement %29), inlined. -/
abbrev o5 : List (HloOp τ sig (Elt F)) :=
  [ StableHlo.TRef.unary (.of main_cst_8 : StableHlo.TRef sig ⟨S_, .f32⟩) (.of main_call1_v0 : StableHlo.TRef sig ⟨S8x4096, .f32⟩) (broadcastInDim S8x4096 ![] bcast_S_S8x4096),
    StableHlo.TRef.ternary (.of main_v25 : StableHlo.TRef sig ⟨S8x4096, .i1⟩) (.of main_v13 : StableHlo.TRef sig ⟨S8x4096, .f32⟩) (.of main_call1_v0 : StableHlo.TRef sig ⟨S8x4096, .f32⟩) (.of main_v29 : StableHlo.TRef sig ⟨S8x4096, .f32⟩) select ]
theorem o5_sub : (o5 : List (HloOp τ sig (Elt F))).Forall fun op => op.bufs ⊆ StableHlo.tcRefs τ sig :=
  ⟨StableHlo.unary_bufs_sub .., StableHlo.ternary_bufs_sub ..⟩
theorem o5_fresh : (o5 : List (HloOp τ sig (Elt F))).Forall fun op => op.fresh = ∅ :=
  ⟨rfl, rfl⟩

/-- Statements %30 … %31: the masked sum over the count. -/
abbrev o6 : List (HloOp τ sig (Elt F)) :=
  [ StableHlo.nullary main_cst_9 (constant S_ .f32 0x00000000#32),
    StableHlo.binary main_v29 main_cst_9 main_v30 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    StableHlo.binary main_v30 main_v28 main_v31 (Host.divf : (⟨S8, .f32⟩ : BufTy).Contents (Elt F) → (⟨S8, .f32⟩ : BufTy).Contents (Elt F) → (⟨S8, .f32⟩ : BufTy).Contents (Elt F)) ]
theorem o6_sub : (o6 : List (HloOp τ sig (Elt F))).Forall fun op => op.bufs ⊆ StableHlo.tcRefs τ sig :=
  ⟨StableHlo.nullary_bufs_sub .., StableHlo.binary_bufs_sub .., StableHlo.binary_bufs_sub ..⟩
theorem o6_fresh : (o6 : List (HloOp τ sig (Elt F))).Forall fun op => op.fresh = ∅ :=
  ⟨rfl, rfl, rfl⟩

/-- Statements %32 … %35 and the offset: the row means of the second distance array. -/
abbrev o7 : List (HloOp τ sig (Elt F)) :=
  [ StableHlo.nullary main_cst_10 (constant S_ .f32 0x00000000#32),
    StableHlo.binary main_v14 main_cst_10 main_v32 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    StableHlo.unary main_v32 main_v33 (broadcastInDim S8x1 ![0] bcast_S8_S8x1_0 : (⟨S8, .f32⟩ : BufTy).Contents (Elt F) → (⟨S8x1, .f32⟩ : BufTy).Contents (Elt F)),
    StableHlo.nullary main_cst_11 (constant S_ .f32 0x45800000#32),
    StableHlo.unary main_cst_11 main_v34 (broadcastInDim S8x1 ![] bcast_S_S8x1 : (⟨S_, .f32⟩ : BufTy).Contents (Elt F) → (⟨S8x1, .f32⟩ : BufTy).Contents (Elt F)),
    StableHlo.binary main_v33 main_v34 main_v35 (Host.divf : (⟨S8x1, .f32⟩ : BufTy).Contents (Elt F) → (⟨S8x1, .f32⟩ : BufTy).Contents (Elt F) → (⟨S8x1, .f32⟩ : BufTy).Contents (Elt F)),
    StableHlo.nullary main_c_12 (constantI S_ 32 1#32) ]
theorem o7_sub : (o7 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem o7_fresh : (o7 : List (HloOp τ sig (Elt F))).Forall fun op => op.fresh = ∅ :=
  ⟨rfl, rfl, rfl, rfl, rfl, rfl, rfl⟩

/-- The second call of the standard deviation (statement %36), inlined. -/
abbrev o8 : List (HloOp τ sig (Elt F)) :=
  [ StableHlo.TRef.nullary (.of main_call2_call0_cst : StableHlo.TRef sig ⟨S_, .f32⟩) (constant S_ .f32 0x00000000#32),
    StableHlo.TRef.binary (.of main_v14 : StableHlo.TRef sig ⟨S8x4096, .f32⟩) (.of main_call2_call0_cst : StableHlo.TRef sig ⟨S_, .f32⟩) (.of main_call2_call0_v0 : StableHlo.TRef sig ⟨S8, .f32⟩) (fun x v => Host.reduceAdd x v reducesTo_S8x4096_S8_d1 h_S_),
    StableHlo.TRef.unary (.of main_call2_call0_v0 : StableHlo.TRef sig ⟨S8, .f32⟩) (.of main_call2_call0_v1 : StableHlo.TRef sig ⟨S8x1, .f32⟩) (broadcastInDim S8x1 ![0] bcast_S8_S8x1_0),
    StableHlo.TRef.nullary (.of main_call2_call0_cst_0 : StableHlo.TRef sig ⟨S_, .f32⟩) (constant S_ .f32 0x45800000#32),
    StableHlo.TRef.unary (.of main_call2_call0_cst_0 : StableHlo.TRef sig ⟨S_, .f32⟩) (.of main_call2_call0_v2 : StableHlo.TRef sig ⟨S8x1, .f32⟩) (broadcastInDim S8x1 ![] bcast_S_S8x1),
    StableHlo.TRef.binary (.of main_call2_call0_v1 : StableHlo.TRef sig ⟨S8x1, .f32⟩) (.of main_call2_call0_v2 : StableHlo.TRef sig ⟨S8x1, .f32⟩) (.of main_call2_call0_v3 : StableHlo.TRef sig ⟨S8x1, .f32⟩) Host.divf,
    StableHlo.TRef.unary (.of main_call2_call0_v3 : StableHlo.TRef sig ⟨S8x1, .f32⟩) (.of main_call2_call0_v4 : StableHlo.TRef sig ⟨S8x4096, .f32⟩) (broadcastInDim S8x4096 ![0, 1] bcast_S8x1_S8x4096_0_1),
    StableHlo.TRef.binary (.of main_v14 : StableHlo.TRef sig ⟨S8x4096, .f32⟩) (.of main_call2_call0_v4 : StableHlo.TRef sig ⟨S8x4096, .f32⟩) (.of main_call2_call0_v5 : StableHlo.TRef sig ⟨S8x4096, .f32⟩) subf,
    StableHlo.TRef.binary (.of main_call2_call0_v5 : StableHlo.TRef sig ⟨S8x4096, .f32⟩) (.of main_call2_call0_v5 : StableHlo.TRef sig ⟨S8x4096, .f32⟩) (.of main_call2_call0_v6 : StableHlo.TRef sig ⟨S8x4096, .f32⟩) mulf,
    StableHlo.TRef.unary (.of main_c_12 : StableHlo.TRef sig ⟨S_, .i32⟩) (.of main_call2_call0_v7 : StableHlo.TRef sig ⟨S_, .f32⟩) (sitofp .f32),
    StableHlo.TRef.nullary (.of main_call2_call0_cst_1 : StableHlo.TRef sig ⟨S_, .f32⟩) (constant S_ .f32 0x45800000#32),
    StableHlo.TRef.binary (.of main_call2_call0_cst_1 : StableHlo.TRef sig ⟨S_, .f32⟩) (.of main_call2_call0_v7 : StableHlo.TRef sig ⟨S_, .f32⟩) (.of main_call2_call0_v8 : StableHlo.TRef sig ⟨S_, .f32⟩) subf,
    StableHlo.TRef.nullary (.of main_call2_call0_cst_2 : StableHlo.TRef sig ⟨S_, .f32⟩) (constant S_ .f32 0x00000000#32),
    StableHlo.TRef.binary (.of main_call2_call0_v6 : StableHlo.TRef sig ⟨S8x4096, .f32⟩) (.of main_call2_call0_cst_2 : StableHlo.TRef sig ⟨S_, .f32⟩) (.of main_call2_call0_v9 : StableHlo.TRef sig ⟨S8, .f32⟩) (fun x v => Host.reduceAdd x v reducesTo_S8x4096_S8_d1 h_S_),
    StableHlo.TRef.unary (.of main_call2_call0_v9 : StableHlo.TRef sig ⟨S8, .f32⟩) (.of main_call2_call0_v10 : StableHlo.TRef sig ⟨S8x1, .f32⟩) (broadcastInDim S8x1 ![0] bcast_S8_S8x1_0),
    StableHlo.TRef.unary (.of main_call2_call0_v8 : StableHlo.TRef sig ⟨S_, .f32⟩) (.of main_call2_call0_v11 : StableHlo.TRef sig ⟨S8x1, .f32⟩) (broadcastInDim S8x1 ![] bcast_S_S8x1),
    StableHlo.TRef.binary (.of main_call2_call0_v10 : StableHlo.TRef sig ⟨S8x1, .f32⟩) (.of main_call2_call0_v11 : StableHlo.TRef sig ⟨S8x1, .f32⟩) (.of main_call2_call0_v12 : StableHlo.TRef sig ⟨S8x1, .f32⟩) Host.divf,
    StableHlo.TRef.nullary (.of main_call2_call0_cst_3 : StableHlo.TRef sig ⟨S_, .f32⟩) (constant S_ .f32 0x00000000#32),
    StableHlo.TRef.binary (.of main_call2_call0_v8 : StableHlo.TRef sig ⟨S_, .f32⟩) (.of main_call2_call0_cst_3 : StableHlo.TRef sig ⟨S_, .f32⟩) (.of main_call2_call0_v13 : StableHlo.TRef sig ⟨S_, .i1⟩) (cmpf .ogt),
    StableHlo.TRef.nullary (.of main_call2_call0_cst_4 : StableHlo.TRef sig ⟨S_, .f32⟩) (constant S_ .f32 0x7FC00000#32),
    StableHlo.TRef.unary (.of main_call2_call0_cst_4 : StableHlo.TRef sig ⟨S_, .f32⟩) (.of main_call2_call0_call0_v0 : StableHlo.TRef sig ⟨S_, .f32⟩) id,
    StableHlo.TRef.unary (.of main_call2_call0_call0_v0 : StableHlo.TRef sig ⟨S_, .f32⟩) (.of main_call2_call0_call0_v1 : StableHlo.TRef sig ⟨S8x1, .f32⟩) (broadcastInDim S8x1 ![] bcast_S_S8x1),
    StableHlo.TRef.ternary (.of main_call2_call0_v13 : StableHlo.TRef sig ⟨S_, .i1⟩) (.of main_call2_call0_v12 : StableHlo.TRef sig ⟨S8x1, .f32⟩) (.of main_call2_call0_call0_v1 : StableHlo.TRef sig ⟨S8x1, .f32⟩) (.of main_call2_v0 : StableHlo.TRef sig ⟨S8x1, .f32⟩) (fun p a b => select (broadcastInDim S8x1 ![] bcast_S_S8x1 p) a b),
    StableHlo.TRef.unary (.of main_call2_v0 : StableHlo.TRef sig ⟨S8x1, .f32⟩) (.of main_v36 : StableHlo.TRef sig ⟨S8x1, .f32⟩) Host.sqrt ]
theorem o8_sub : (o8 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩
theorem o8_fresh : (o8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Statements %37 … %43: deviations, threshold, mask, the mask widened to integers. -/
abbrev o9 : List (HloOp τ sig (Elt F)) :=
  [ StableHlo.unary main_v35 main_v37 (broadcastInDim S8x4096 ![0, 1] bcast_S8x1_S8x4096_0_1 : (⟨S8x1, .f32⟩ : BufTy).Contents (Elt F) → (⟨S8x4096, .f32⟩ : BufTy).Contents (Elt F)),
    StableHlo.binary main_v14 main_v37 main_v38 (subf : (⟨S8x4096, .f32⟩ : BufTy).Contents (Elt F) → (⟨S8x4096, .f32⟩ : BufTy).Contents (Elt F) → (⟨S8x4096, .f32⟩ : BufTy).Contents (Elt F)),
    StableHlo.nullary main_cst_13 (constant S_ .f32 0xBF000000#32),
    StableHlo.unary main_cst_13 main_v39 (broadcastInDim S8x1 ![] bcast_S_S8x1 : (⟨S_, .f32⟩ : BufTy).Contents (Elt F) → (⟨S8x1, .f32⟩ : BufTy).Contents (Elt F)),
    StableHlo.binary main_v39 main_v36 main_v40 (mulf : (⟨S8x1, .f32⟩ : BufTy).Contents (Elt F) → (⟨S8x1, .f32⟩ : BufTy).Contents (Elt F) → (⟨S8x1, .f32⟩ : BufTy).Contents (Elt F)),
    StableHlo.unary main_v40 main_v41 (broadcastInDim S8x4096 ![0, 1] bcast_S8x1_S8x4096_0_1 : (⟨S8x1, .f32⟩ : BufTy).Contents (Elt F) → (⟨S8x4096, .f32⟩ : BufTy).Contents (Elt F)),
    StableHlo.binary main_v38 main_v41 main_v42 (cmpf .ogt : (⟨S8x4096, .f32⟩ : BufTy).Contents (Elt F) → (⟨S8x4096, .f32⟩ : BufTy).Contents (Elt F) → (⟨S8x4096, .i1⟩ : BufTy).Contents (Elt F)),
    StableHlo.unary main_v42 main_v43 ((extui 32 · natLt_1_32) : (⟨S8x4096, .i1⟩ : BufTy).Contents (Elt F) → (⟨S8x4096, .i32⟩ : BufTy).Contents (Elt F)) ]
theorem o9_sub : (o9 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub ..⟩
theorem o9_fresh : (o9 : List (HloOp τ sig (Elt F))).Forall fun op => op.fresh = ∅ :=
  ⟨rfl, rfl, rfl, rfl, rfl, rfl, rfl, rfl⟩

/-- Statements %44 … %45: the count of the second mask. -/
abbrev o10 : List (HloOp τ sig (Elt F)) :=
  [ StableHlo.nullary main_c_14 (constantI S_ 32 0#32),
    StableHlo.binary main_v43 main_c_14 main_v44 ((fun x v => Host.reduce IntOp.addi x v reducesTo_S8x4096_S8_d1 h_S_) : (⟨S8x4096, .i32⟩ : BufTy).Contents (Elt F) → (⟨S_, .i32⟩ : BufTy).Contents (Elt F) → (⟨S8, .i32⟩ : BufTy).Contents (Elt F)),
    StableHlo.unary main_v44 main_v45 (sitofp .f32 : (⟨S8, .i32⟩ : BufTy).Contents (Elt F) → (⟨S8, .f32⟩ : BufTy).Contents (Elt F)),
    StableHlo.nullary main_cst_15 (constant S_ .f32 0x00000000#32) ]
theorem o10_sub : (o10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub ..⟩
theorem o10_fresh : (o10 : List (HloOp τ sig (Elt F))).Forall fun op => op.fresh = ∅ :=
  ⟨rfl, rfl, rfl, rfl⟩

/-- The second select against zero (statement %46), inlined. -/
abbrev o11 : List (HloOp τ sig (Elt F)) :=
  [ StableHlo.TRef.unary (.of main_cst_15 : StableHlo.TRef sig ⟨S_, .f32⟩) (.of main_call3_v0 : StableHlo.TRef sig ⟨S8x4096, .f32⟩) (broadcastInDim S8x4096 ![] bcast_S_S8x4096),
    StableHlo.TRef.ternary (.of main_v42 : StableHlo.TRef sig ⟨S8x4096, .i1⟩) (.of main_v14 : StableHlo.TRef sig ⟨S8x4096, .f32⟩) (.of main_call3_v0 : StableHlo.TRef sig ⟨S8x4096, .f32⟩) (.of main_v46 : StableHlo.TRef sig ⟨S8x4096, .f32⟩) select ]
theorem o11_sub : (o11 : List (HloOp τ sig (Elt F))).Forall fun op => op.bufs ⊆ StableHlo.tcRefs τ sig :=
  ⟨StableHlo.unary_bufs_sub .., StableHlo.ternary_bufs_sub ..⟩
theorem o11_fresh : (o11 : List (HloOp τ sig (Elt F))).Forall fun op => op.fresh = ∅ :=
  ⟨rfl, rfl⟩

/-- Statements %47 … %48: the second masked sum over its count. -/
abbrev o12 : List (HloOp τ sig (Elt F)) :=
  [ StableHlo.nullary main_cst_16 (constant S_ .f32 0x00000000#32),
    StableHlo.binary main_v46 main_cst_16 main_v47 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    StableHlo.binary main_v47 main_v45 main_v48 (Host.divf : (⟨S8, .f32⟩ : BufTy).Contents (Elt F) → (⟨S8, .f32⟩ : BufTy).Contents (Elt F) → (⟨S8, .f32⟩ : BufTy).Contents (Elt F)) ]
theorem o12_sub : (o12 : List (HloOp τ sig (Elt F))).Forall fun op => op.bufs ⊆ StableHlo.tcRefs τ sig :=
  ⟨StableHlo.nullary_bufs_sub .., StableHlo.binary_bufs_sub .., StableHlo.binary_bufs_sub ..⟩
theorem o12_fresh : (o12 : List (HloOp τ sig (Elt F))).Forall fun op => op.fresh = ∅ :=
  ⟨rfl, rfl, rfl⟩

/-- Statements %49 … %51: the two masked means added, summed over the batch, divided by 8. -/
abbrev o13 : List (HloOp τ sig (Elt F)) :=
  [ StableHlo.binary main_v31 main_v48 main_v49 (addf : (⟨S8, .f32⟩ : BufTy).Contents (Elt F) → (⟨S8, .f32⟩ : BufTy).Contents (Elt F) → (⟨S8, .f32⟩ : BufTy).Contents (Elt F)),
    StableHlo.nullary main_cst_17 (constant S_ .f32 0x00000000#32),
    StableHlo.binary main_v49 main_cst_17 main_v50 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_18 (constant S_ .f32 0x41000000#32),
    StableHlo.binary main_v50 main_cst_18 main_v51 (Host.divf : (⟨S_, .f32⟩ : BufTy).Contents (Elt F) → (⟨S_, .f32⟩ : BufTy).Contents (Elt F) → (⟨S_, .f32⟩ : BufTy).Contents (Elt F)) ]
theorem o13_sub : (o13 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub ..⟩
theorem o13_fresh : (o13 : List (HloOp τ sig (Elt F))).Forall fun op => op.fresh = ∅ :=
  ⟨rfl, rfl, rfl, rfl, rfl⟩

/-! ## @main is these operations in a row -/

/-- @main is the stretches one after the other: the two windows of its statements run in order, a call's
    body unfolded in the call's place. -/
theorem main_chain (c : Dev nD) : main (F := F) c = (Pipeline.chain
  [ StableHlo.seq o1,
    StableHlo.seq o2,
    StableHlo.seq o3,
    StableHlo.seq o4,
    StableHlo.seq o5,
    StableHlo.seq o6,
    StableHlo.seq o7,
    StableHlo.seq o8,
    StableHlo.seq o9,
    StableHlo.seq o10,
    StableHlo.seq o11,
    StableHlo.seq o12,
    StableHlo.seq o13 ] : Prog (TpuEff nD τ sig (Elt F) (Pipeline.Sig Λ₀ (Fin 0) fun p => (pcfgs (F := F) p).Adm) .tc) PUnit) := by
  chain_rfl

/-- Straight lines run one after the other are their concatenation run as one. -/
theorem chain_seq {nD : Nat} {τ : Topo} {sig : RefSig} {Val : EltTy → Type} {Λ : Labels} :
    ∀ ls : List (List (HloOp τ sig Val)),
      (Pipeline.chain (ls.map fun l => (StableHlo.seq l : Prog (TpuEff nD τ sig Val Λ .tc) PUnit))) = StableHlo.seq ls.flatten
  | [] => rfl
  | l :: ls => by
    rw [List.map_cons, Pipeline.chain_cons, chain_seq ls, List.flatten_cons, StableHlo.seq_append]

/-- The masked mean of the first distance array: statements %15 … %31. -/
abbrev opsMy : List (HloOp τ sig (Elt F)) := o2 ++ (o3 ++ (o4 ++ (o5 ++ o6)))
/-- The masked mean of the second distance array: statements %32 … %48. -/
abbrev opsMx : List (HloOp τ sig (Elt F)) := o7 ++ (o8 ++ (o9 ++ (o10 ++ (o11 ++ o12))))
/-- The whole program: 121 operations. -/
abbrev ops : List (HloOp τ sig (Elt F)) := o1 ++ (opsMy ++ (opsMx ++ o13))

theorem main_eq (c : Dev nD) : main (F := F) c = StableHlo.seq ops := by
  rw [main_chain c]
  exact (chain_seq [o1, o2, o3, o4, o5, o6, o7, o8, o9, o10, o11, o12, o13]).trans
    (congrArg StableHlo.seq (by simp only [ops, opsMy, opsMx, List.flatten_cons, List.flatten_nil, List.append_nil, List.append_assoc]))

/-! ## What the program computes, as pure terms -/

/-- The squared distances, statements %0 … %12: the squared norms of the points of `X` down the rows and of the points
    of `Y` along the columns, less twice the inner products. -/
def d2F (X Y : FVec F S8x4096x3 .f32) : FVec F S8x4096x4096 .f32 :=
  subf
    (addf
      (broadcastInDim S8x4096x4096 ![0, 1, 2] bcast_S8x4096x1_S8x4096x4096_0_1_2
        (broadcastInDim S8x4096x1 ![0, 1] bcast_S8x4096_S8x4096x1_0_1
          (Host.reduceAdd (mulf X X) (constant S_ .f32 0x00000000#32) reducesTo_S8x4096x3_S8x4096_d2 h_S_)))
      (broadcastInDim S8x4096x4096 ![0, 1, 2] bcast_S8x1x4096_S8x4096x4096_0_1_2
        (broadcastInDim S8x1x4096 ![0, 2] bcast_S8x4096_S8x1x4096_0_2
          (Host.reduceAdd (mulf Y Y) (constant S_ .f32 0x00000000#32) reducesTo_S8x4096x3_S8x4096_d2 h_S_))))
    (mulf (broadcastInDim S8x4096x4096 ![] bcast_S_S8x4096x4096 (constant S_ .f32 0x40000000#32))
      (Host.dotGeneral dot_S8x4096x3_S8x4096x3_S8x4096x4096_2_2_1_1_0_0 none X Y))

/-- Statement %13: for each point of `X` the least squared distance to a point of `Y` (a minimum along the last axis, from +∞). -/
def dYF (X Y : FVec F S8x4096x3 .f32) : FVec F S8x4096 .f32 :=
  Host.reduce FloatOps.minimumf (d2F X Y) (constant S_ .f32 0x7F800000#32) reducesTo_S8x4096x4096_S8x4096_d2 h_S_

/-- Statement %14: for each point of `Y` the least squared distance to a point of `X` (a minimum along the middle axis, from +∞). -/
def dXF (X Y : FVec F S8x4096x3 .f32) : FVec F S8x4096 .f32 :=
  Host.reduce FloatOps.minimumf (d2F X Y) (constant S_ .f32 0x7F800000#32) reducesTo_S8x4096x4096_S8x4096_d1 h_S_

/-- The mean of each row, kept as a column: the row sums over 4096 (statements %15 … %18; the variance computes the same). -/
def rowMeanF (v : FVec F S8x4096 .f32) : FVec F S8x1 .f32 :=
  Host.divf
    (broadcastInDim S8x1 ![0] bcast_S8_S8x1_0 (Host.reduceAdd v (constant S_ .f32 0x00000000#32) reducesTo_S8x4096_S8_d1 h_S_))
    (broadcastInDim S8x1 ![] bcast_S_S8x1 (constant S_ .f32 0x45800000#32))

/-- Each entry less its row's mean. -/
def centredF (v : FVec F S8x4096 .f32) : FVec F S8x4096 .f32 :=
  subf v (broadcastInDim S8x4096 ![0, 1] bcast_S8x1_S8x4096_0_1 (rowMeanF v))

/-- The degrees of freedom of the unbiased variance: 4096 less the offset 1, as a float. -/
def dofF : FVec F S_ .f32 :=
  subf (constant S_ .f32 0x45800000#32) (sitofp .f32 (constantI S_ 32 1#32))

/-- The unbiased variance of each row: the sum of the squared deviations over the degrees of freedom where those are
    positive, the quiet not-a-number word elsewhere. -/
def rowVarF (v : FVec F S8x4096 .f32) : FVec F S8x1 .f32 :=
  select (broadcastInDim S8x1 ![] bcast_S_S8x1 (cmpf .ogt (dofF (F := F)) (constant S_ .f32 0x00000000#32)))
    (Host.divf
      (broadcastInDim S8x1 ![0] bcast_S8_S8x1_0
        (Host.reduceAdd (mulf (centredF v) (centredF v)) (constant S_ .f32 0x00000000#32) reducesTo_S8x4096_S8_d1 h_S_))
      (broadcastInDim S8x1 ![] bcast_S_S8x1 (dofF (F := F))))
    (broadcastInDim S8x1 ![] bcast_S_S8x1 (id (constant S_ .f32 0x7FC00000#32)))

/-- The unbiased standard deviation of each row (statements %19, %36). -/
def rowStdF (v : FVec F S8x4096 .f32) : FVec F S8x1 .f32 :=
  Host.sqrt (rowVarF v)

/-- The mask (statements %20 … %25): the entries whose deviation from the row mean exceeds −½ of the row's standard deviation. -/
def keepMaskF (v : FVec F S8x4096 .f32) : IVec S8x4096 1 :=
  cmpf .ogt (centredF v)
    (broadcastInDim S8x4096 ![0, 1] bcast_S8x1_S8x4096_0_1
      (mulf (broadcastInDim S8x1 ![] bcast_S_S8x1 (constant S_ .f32 0xBF000000#32)) (rowStdF v)))

/-- The number of kept entries of each row, as a float (statements %26 … %28). -/
def keepCountF (v : FVec F S8x4096 .f32) : FVec F S8 .f32 :=
  sitofp .f32 (Host.reduce IntOp.addi (extui 32 (keepMaskF v) natLt_1_32) (constantI S_ 32 0#32) reducesTo_S8x4096_S8_d1 h_S_)

/-- The masked mean of each row (statements %15 … %31, and %32 … %48): the sum of the kept entries over their number. -/
def maskedMeanF (v : FVec F S8x4096 .f32) : FVec F S8 .f32 :=
  Host.divf
    (Host.reduceAdd (select (keepMaskF v) v (broadcastInDim S8x4096 ![] bcast_S_S8x4096 (constant S_ .f32 0x00000000#32)))
      (constant S_ .f32 0x00000000#32) reducesTo_S8x4096_S8_d1 h_S_)
    (keepCountF v)

/-- Statements %49 … %51: the two masked means added, summed over the 8 batches, divided by 8. -/
def tailF (dy dx : FVec F S8x4096 .f32) : FVec F S_ .f32 :=
  Host.divf
    (Host.reduceAdd (addf (maskedMeanF dy) (maskedMeanF dx)) (constant S_ .f32 0x00000000#32) reducesTo_S8_S_d0 h_S_)
    (constant S_ .f32 0x41000000#32)

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  List.forall_iff_forall_mem.mpr fun op h => by
    simp only [ops, opsMy, opsMx, List.mem_append] at h
    rcases h with h | (h | h | h | h | h) | (h | h | h | h | h | h) | h
    exacts [List.forall_iff_forall_mem.mp o1_sub op h, List.forall_iff_forall_mem.mp o2_sub op h, List.forall_iff_forall_mem.mp o3_sub op h, List.forall_iff_forall_mem.mp o4_sub op h, List.forall_iff_forall_mem.mp o5_sub op h, List.forall_iff_forall_mem.mp o6_sub op h, List.forall_iff_forall_mem.mp o7_sub op h, List.forall_iff_forall_mem.mp o8_sub op h, List.forall_iff_forall_mem.mp o9_sub op h, List.forall_iff_forall_mem.mp o10_sub op h, List.forall_iff_forall_mem.mp o11_sub op h, List.forall_iff_forall_mem.mp o12_sub op h, List.forall_iff_forall_mem.mp o13_sub op h]

theorem ops_fresh : ∀ op ∈ (ops : List (HloOp τ sig (Elt F))), op.fresh = ∅ := fun op h => by
  simp only [ops, opsMy, opsMx, List.mem_append] at h
  rcases h with h | (h | h | h | h | h) | (h | h | h | h | h | h) | h
  exacts [List.forall_iff_forall_mem.mp o1_fresh op h, List.forall_iff_forall_mem.mp o2_fresh op h, List.forall_iff_forall_mem.mp o3_fresh op h, List.forall_iff_forall_mem.mp o4_fresh op h, List.forall_iff_forall_mem.mp o5_fresh op h, List.forall_iff_forall_mem.mp o6_fresh op h, List.forall_iff_forall_mem.mp o7_fresh op h, List.forall_iff_forall_mem.mp o8_fresh op h, List.forall_iff_forall_mem.mp o9_fresh op h, List.forall_iff_forall_mem.mp o10_fresh op h, List.forall_iff_forall_mem.mp o11_fresh op h, List.forall_iff_forall_mem.mp o12_fresh op h, List.forall_iff_forall_mem.mp o13_fresh op h]

/-- The contents after the whole program: after each group in turn. -/
theorem after_ops (V : Valuation τ sig (Elt F)) :
    StableHlo.after ops V = StableHlo.after o13 (StableHlo.after opsMx (StableHlo.after opsMy (StableHlo.after o1 V))) := by
  show StableHlo.after (o1 ++ (opsMy ++ (opsMx ++ o13))) V = _
  rw [StableHlo.after_append o1, StableHlo.after_append opsMy, StableHlo.after_append opsMx]

/-- After statements %0 … %14 the two distance arrays are the composed terms of the arguments. -/
theorem valA_dY (V : Valuation τ sig (Elt F)) :
    StableHlo.after o1 V (Proc.devRef .tc main_v13) = dYF (V (Proc.devRef .tc main_arg0)) (V (Proc.devRef .tc main_arg1)) := by
  after_results_simp
  rfl
theorem valA_dX (V : Valuation τ sig (Elt F)) :
    StableHlo.after o1 V (Proc.devRef .tc main_v14) = dXF (V (Proc.devRef .tc main_arg0)) (V (Proc.devRef .tc main_arg1)) := by
  after_results_simp
  rfl

set_option maxRecDepth 8192 in
set_option maxHeartbeats 4000000 in
/-- Statements %15 … %31 leave the masked mean of what the first distance array held. -/
theorem valMy (V : Valuation τ sig (Elt F)) :
    StableHlo.after opsMy V (Proc.devRef .tc main_v31) = maskedMeanF (V (Proc.devRef .tc main_v13)) := by
  simp only [opsMy, StableHlo.after_append]
  after_results_simp
  rfl

set_option maxRecDepth 8192 in
set_option maxHeartbeats 4000000 in
/-- Statements %32 … %48 leave the masked mean of what the second distance array held. -/
theorem valMx (V : Valuation τ sig (Elt F)) :
    StableHlo.after opsMx V (Proc.devRef .tc main_v48) = maskedMeanF (V (Proc.devRef .tc main_v14)) := by
  simp only [opsMx, StableHlo.after_append]
  after_results_simp
  rfl

/-- Statements %49 … %51. -/
theorem valD (V : Valuation τ sig (Elt F)) :
    StableHlo.after o13 V (Proc.devRef .tc main_v51)
      = Host.divf (Host.reduceAdd (addf (V (Proc.devRef .tc main_v31)) (V (Proc.devRef .tc main_v48))) (constant S_ .f32 0x00000000#32) reducesTo_S8_S_d0 h_S_)
          (constant S_ .f32 0x41000000#32) := by
  after_results_simp

/-! Buffers a group does not write keep their contents. -/
set_option maxRecDepth 8192 in
theorem keepMy_v14 (V : Valuation τ sig (Elt F)) : StableHlo.after opsMy V (Proc.devRef .tc main_v14) = V (Proc.devRef .tc main_v14) := by
  simp only [opsMy, StableHlo.after_append]
  after_results_simp

set_option maxRecDepth 8192 in
theorem keepMx_v31 (V : Valuation τ sig (Elt F)) : StableHlo.after opsMx V (Proc.devRef .tc main_v31) = V (Proc.devRef .tc main_v31) := by
  simp only [opsMx, StableHlo.after_append]
  after_results_simp

set_option maxRecDepth 8192 in
theorem keepA_arg0 (V : Valuation τ sig (Elt F)) : StableHlo.after o1 V (Proc.devRef .tc main_arg0) = V (Proc.devRef .tc main_arg0) := by
  after_results_simp

set_option maxRecDepth 8192 in
theorem keepA_arg1 (V : Valuation τ sig (Elt F)) : StableHlo.after o1 V (Proc.devRef .tc main_arg1) = V (Proc.devRef .tc main_arg1) := by
  after_results_simp

set_option maxRecDepth 8192 in
theorem keepMy_arg0 (V : Valuation τ sig (Elt F)) : StableHlo.after opsMy V (Proc.devRef .tc main_arg0) = V (Proc.devRef .tc main_arg0) := by
  simp only [opsMy, StableHlo.after_append]
  after_results_simp

set_option maxRecDepth 8192 in
theorem keepMy_arg1 (V : Valuation τ sig (Elt F)) : StableHlo.after opsMy V (Proc.devRef .tc main_arg1) = V (Proc.devRef .tc main_arg1) := by
  simp only [opsMy, StableHlo.after_append]
  after_results_simp

set_option maxRecDepth 8192 in
theorem keepMx_arg0 (V : Valuation τ sig (Elt F)) : StableHlo.after opsMx V (Proc.devRef .tc main_arg0) = V (Proc.devRef .tc main_arg0) := by
  simp only [opsMx, StableHlo.after_append]
  after_results_simp

set_option maxRecDepth 8192 in
theorem keepMx_arg1 (V : Valuation τ sig (Elt F)) : StableHlo.after opsMx V (Proc.devRef .tc main_arg1) = V (Proc.devRef .tc main_arg1) := by
  simp only [opsMx, StableHlo.after_append]
  after_results_simp

set_option maxRecDepth 8192 in
theorem keepD_arg0 (V : Valuation τ sig (Elt F)) : StableHlo.after o13 V (Proc.devRef .tc main_arg0) = V (Proc.devRef .tc main_arg0) := by
  after_results_simp

set_option maxRecDepth 8192 in
theorem keepD_arg1 (V : Valuation τ sig (Elt F)) : StableHlo.after o13 V (Proc.devRef .tc main_arg1) = V (Proc.devRef .tc main_arg1) := by
  after_results_simp

/-- The result buffer after the whole program. -/
theorem val_v51 (V : Valuation τ sig (Elt F)) :
    StableHlo.after ops V (Proc.devRef .tc main_v51)
      = tailF (dYF (V (Proc.devRef .tc main_arg0)) (V (Proc.devRef .tc main_arg1))) (dXF (V (Proc.devRef .tc main_arg0)) (V (Proc.devRef .tc main_arg1))) := by
  rw [after_ops, valD, valMx, keepMx_v31, valMy, keepMy_v14, valA_dY, valA_dX]
  rfl

theorem val_arg0 (V : Valuation τ sig (Elt F)) : StableHlo.after ops V (Proc.devRef .tc main_arg0) = V (Proc.devRef .tc main_arg0) := by
  rw [after_ops, keepD_arg0, keepMx_arg0, keepMy_arg0, keepA_arg0]
theorem val_arg1 (V : Valuation τ sig (Elt F)) : StableHlo.after ops V (Proc.devRef .tc main_arg1) = V (Proc.devRef .tc main_arg1) := by
  rw [after_ops, keepD_arg1, keepMx_arg1, keepMy_arg1, keepA_arg1]

/-- On every device, for any float values, from any memory with zero counters: every weakly fair execution of @main
    terminates with the result at the operations' composed term of the arguments — the batch average of the two
    masked means of the two distance arrays — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = tailF (dYF (m ((c.tc : Thread nD τ).loc main_arg0)) (m ((c.tc : Thread nD τ).loc main_arg1)))
            (dXF (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v51).trans (val_v51 _), (h c main_arg0).trans (val_arg0 _),
      (h c main_arg1).trans (val_arg1 _)⟩)
    (StableHlo.run_seq scopedRefs_eq scopedSems_eq defs main (fun _ => ops) main_eq (fun _ => ops_sub) m ρ (fun _ => ops_fresh))

/-- The program runs to its end, faults nowhere and leaves its two arguments as they were: the run with the result dropped. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.Hand

end
-- ==== Proof.RefTail.lean ====
/-
  The reference's arithmetic at the extended reals, as pure definitions.

  The two arrays of least squared distances (the squared norms added and twice the inner products taken off, then a
  minimum along one axis from +∞), and what the program does with them afterwards: for each of the two arrays and each of
  its 8 rows, the mean of the row, its unbiased standard deviation (the sum of squared deviations over 4095, under a
  square root), the entries whose deviation from the mean exceeds −½ of that standard deviation, and the sum of those
  entries over their number; the two results added, summed over the rows and divided by 8. Every definition is the
  composition of the operations' own functions in the program's order, nothing simplified; every float operation and
  constant is read at the extended reals.
-/
import proofs.«134267_j10625749090595_2_alg».proof.Proof.RefRun
import Idealize.ShloMosaic.PureOps.Ideal

noncomputable section

namespace Cert.ReferenceIdeal.Hand

open Cert.ReferenceIdeal Cert.ReferenceIdeal.Gen Idealize.ShloMosaic

/-- The squared distances, statements %0 … %12: the squared norms of the points of `X` down the rows and of the points
    of `Y` along the columns, less twice the inner products. -/
def d2 (X Y : FVec Ideal S8x4096x3 .f32) : FVec Ideal S8x4096x4096 .f32 :=
  subf
    (addf
      (broadcastInDim S8x4096x4096 ![0, 1, 2] bcast_S8x4096x1_S8x4096x4096_0_1_2
        (broadcastInDim S8x4096x1 ![0, 1] bcast_S8x4096_S8x4096x1_0_1
          (Host.reduceAdd (F := Ideal) (mulf X X) (constant (F := Ideal) S_ .f32 0x00000000#32) reducesTo_S8x4096x3_S8x4096_d2 h_S_)))
      (broadcastInDim S8x4096x4096 ![0, 1, 2] bcast_S8x1x4096_S8x4096x4096_0_1_2
        (broadcastInDim S8x1x4096 ![0, 2] bcast_S8x4096_S8x1x4096_0_2
          (Host.reduceAdd (F := Ideal) (mulf Y Y) (constant (F := Ideal) S_ .f32 0x00000000#32) reducesTo_S8x4096x3_S8x4096_d2 h_S_))))
    (mulf (broadcastInDim S8x4096x4096 ![] bcast_S_S8x4096x4096 (constant (F := Ideal) S_ .f32 0x40000000#32))
      (Host.dotGeneral (F := Ideal) dot_S8x4096x3_S8x4096x3_S8x4096x4096_2_2_1_1_0_0 none X Y))

/-- Statement %13: for each point of `X` the least squared distance to a point of `Y` (a minimum along the last axis, from +∞). -/
def dY (X Y : FVec Ideal S8x4096x3 .f32) : FVec Ideal S8x4096 .f32 :=
  Host.reduce (FloatOps.minimumf (F := Ideal) (φ := .f32)) (d2 X Y) (constant (F := Ideal) S_ .f32 0x7F800000#32) reducesTo_S8x4096x4096_S8x4096_d2 h_S_

/-- Statement %14: for each point of `Y` the least squared distance to a point of `X` (a minimum along the middle axis, from +∞). -/
def dX (X Y : FVec Ideal S8x4096x3 .f32) : FVec Ideal S8x4096 .f32 :=
  Host.reduce (FloatOps.minimumf (F := Ideal) (φ := .f32)) (d2 X Y) (constant (F := Ideal) S_ .f32 0x7F800000#32) reducesTo_S8x4096x4096_S8x4096_d1 h_S_

/-- The mean of each row, kept as a column: the row sums over 4096 (statements %15 … %18; the variance computes the same). -/
def rowMean (v : FVec Ideal S8x4096 .f32) : FVec Ideal S8x1 .f32 :=
  Host.divf (F := Ideal)
    (broadcastInDim S8x1 ![0] bcast_S8_S8x1_0 (Host.reduceAdd (F := Ideal) v (constant (F := Ideal) S_ .f32 0x00000000#32) reducesTo_S8x4096_S8_d1 h_S_))
    (broadcastInDim S8x1 ![] bcast_S_S8x1 (constant (F := Ideal) S_ .f32 0x45800000#32))

/-- Each entry less its row's mean. -/
def centred (v : FVec Ideal S8x4096 .f32) : FVec Ideal S8x4096 .f32 :=
  subf v (broadcastInDim S8x4096 ![0, 1] bcast_S8x1_S8x4096_0_1 (rowMean v))

/-- The degrees of freedom of the unbiased variance: 4096 less the offset 1, as a float. -/
def dof : FVec Ideal S_ .f32 :=
  subf (constant (F := Ideal) S_ .f32 0x45800000#32) (sitofp .f32 (constantI S_ 32 1#32))

/-- The unbiased variance of each row: the sum of the squared deviations over the degrees of freedom where those are
    positive, the quiet not-a-number word elsewhere. -/
def rowVar (v : FVec Ideal S8x4096 .f32) : FVec Ideal S8x1 .f32 :=
  select (broadcastInDim S8x1 ![] bcast_S_S8x1 (cmpf .ogt (dof) (constant (F := Ideal) S_ .f32 0x00000000#32)))
    (Host.divf (F := Ideal)
      (broadcastInDim S8x1 ![0] bcast_S8_S8x1_0
        (Host.reduceAdd (F := Ideal) (mulf (centred v) (centred v)) (constant (F := Ideal) S_ .f32 0x00000000#32) reducesTo_S8x4096_S8_d1 h_S_))
      (broadcastInDim S8x1 ![] bcast_S_S8x1 (dof)))
    (broadcastInDim S8x1 ![] bcast_S_S8x1 (id (constant (F := Ideal) S_ .f32 0x7FC00000#32)))

/-- The unbiased standard deviation of each row (statements %19, %36). -/
def rowStd (v : FVec Ideal S8x4096 .f32) : FVec Ideal S8x1 .f32 :=
  Host.sqrt (F := Ideal) (rowVar v)

/-- The mask (statements %20 … %25): the entries whose deviation from the row mean exceeds −½ of the row's standard deviation. -/
def keepMask (v : FVec Ideal S8x4096 .f32) : IVec S8x4096 1 :=
  cmpf .ogt (centred v)
    (broadcastInDim S8x4096 ![0, 1] bcast_S8x1_S8x4096_0_1
      (mulf (broadcastInDim S8x1 ![] bcast_S_S8x1 (constant (F := Ideal) S_ .f32 0xBF000000#32)) (rowStd v)))

/-- The number of kept entries of each row, as a float (statements %26 … %28). -/
def keepCount (v : FVec Ideal S8x4096 .f32) : FVec Ideal S8 .f32 :=
  sitofp .f32 (Host.reduce IntOp.addi (extui 32 (keepMask v) natLt_1_32) (constantI S_ 32 0#32) reducesTo_S8x4096_S8_d1 h_S_)

/-- The masked mean of each row (statements %15 … %31, and %32 … %48): the sum of the kept entries over their number. -/
def maskedMean (v : FVec Ideal S8x4096 .f32) : FVec Ideal S8 .f32 :=
  Host.divf (F := Ideal)
    (Host.reduceAdd (F := Ideal) (select (keepMask v) v (broadcastInDim S8x4096 ![] bcast_S_S8x4096 (constant (F := Ideal) S_ .f32 0x00000000#32)))
      (constant (F := Ideal) S_ .f32 0x00000000#32) reducesTo_S8x4096_S8_d1 h_S_)
    (keepCount v)

/-- Statements %49 … %51: the two masked means added, summed over the 8 batches, divided by 8. -/
def tail (dy dx : FVec Ideal S8x4096 .f32) : FVec Ideal S_ .f32 :=
  Host.divf (F := Ideal)
    (Host.reduceAdd (F := Ideal) (addf (maskedMean dy) (maskedMean dx)) (constant (F := Ideal) S_ .f32 0x00000000#32) reducesTo_S8_S_d0 h_S_)
    (constant (F := Ideal) S_ .f32 0x41000000#32)

/-- The two distance arrays at the extended reals are the program's composed terms read there. -/
theorem dY_eq_dYF (X Y : FVec Ideal S8x4096x3 .f32) : dYF (F := Ideal) X Y = dY X Y := rfl
theorem dX_eq_dXF (X Y : FVec Ideal S8x4096x3 .f32) : dXF (F := Ideal) X Y = dX X Y := rfl

/-- The masked mean and the closing average at the extended reals are the program's composed terms read there. -/
theorem maskedMean_eq_maskedMeanF (v : FVec Ideal S8x4096 .f32) : maskedMeanF (F := Ideal) v = maskedMean v := rfl
theorem tail_eq_tailF (dy dx : FVec Ideal S8x4096 .f32) : tailF (F := Ideal) dy dx = tail dy dx := rfl

/-- The run's composed term of the arguments, read at the extended reals, is the closing average of the two masked
    means of the two distance arrays. -/
theorem result_eq (X Y : FVec Ideal S8x4096x3 .f32) :
    tailF (F := Ideal) (dYF X Y) (dXF X Y) = tail (dY X Y) (dX X Y) := rfl

end Cert.ReferenceIdeal.Hand

end
-- ==== Proof.KITail.lean ====
/-
  The host lines after the kernel region, read as one function.

  After the region the program reshapes the two distance arrays to [8, 4096] and applies to them the same masked-mean
  arithmetic as the reference does to its own two distance arrays (row mean, unbiased standard deviation, the mask of
  the entries above mean − ½·std, the masked sum over the count, the two results added and averaged over the batches):
  the result buffer after those lines is that function of the two reshaped arrays, whatever the other buffers held.
-/
import proofs.«134267_j10625749090595_2_alg».proof.Proof.Gen.KernelIdeal.Launch
import proofs.«134267_j10625749090595_2_alg».proof.Proof.Gen.KernelIdeal.Skeleton
import proofs.«134267_j10625749090595_2_alg».proof.Proof.Gen.KernelIdeal.Points
import proofs.«134267_j10625749090595_2_alg».proof.Proof.KIMain
import proofs.«134267_j10625749090595_2_alg».proof.Proof.RefTail
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
set_option maxHeartbeats 4000000 in
/-- The result of the later host lines from any contents `W` of the buffers at the region's exit: the masked-mean
    function of the region's two result arrays, each reshaped to [8, 4096]. -/
theorem tail_eq (W : Valuation τ sig (Elt Ideal)) :
    (StableHlo.after (tailOps (F := Ideal)).flatten W (Proc.devRef .tc main_v40) : S_.Idx → EReal)
      = Cert.ReferenceIdeal.Hand.tail
          (shapeCast S8x4096 (W (Proc.devRef .tc main_v1_0) : S8x4096x1.Idx → EReal) shapeCasts_S8x4096x1_S8x4096)
          (shapeCast S8x4096 (W (Proc.devRef .tc main_v1_1) : S8x1x4096.Idx → EReal) shapeCasts_S8x1x4096_S8x4096) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  rfl

end Cert.KernelIdeal.Hand

end
-- ==== Proof.Spec.lean ====
/-
  The mathematics both programs compute, stated once over the argument arrays.

  For point clouds X, Y : [8, 4096, 3] over the extended reals, the squared distance between point n of X and
  point m of Y in batch b is  |x|² + |y|² - 2·⟨x, y⟩  (the three-term expansion, each term a sum over the 3 coordinates);
  distY (b, n) is its greatest lower bound over all m (each x-point's nearest y-point), distX (b, m) its greatest
  lower bound over all n (each y-point's nearest x-point).
-/
import Idealize.ShloMosaic.PureOps.Ideal
import Idealize.ShloMosaic.Lib.ValueIdx

noncomputable section

namespace Cert.Chamfer

open Idealize.ShloMosaic Idealize.ShloMosaic.ValueIdx

/-- The squared distance of point `n` of `X` to point `m` of `Y` in batch `b`, expanded:
    the two squared norms, less twice the inner product. -/
def d2 (X Y : (⟨3, ![8, 4096, 3]⟩ : Shape).Idx → EReal) (b : Fin 8) (n m : Fin 4096) : EReal :=
  ((∑ d : Fin 3, X (ix3 b n d) * X (ix3 b n d)) + (∑ d : Fin 3, Y (ix3 b m d) * Y (ix3 b m d)))
    - 2 * ∑ d : Fin 3, X (ix3 b n d) * Y (ix3 b m d)

/-- For each point of `X`, the least squared distance to a point of `Y`. -/
def distY (X Y : (⟨3, ![8, 4096, 3]⟩ : Shape).Idx → EReal) : (⟨2, ![8, 4096]⟩ : Shape).Idx → EReal :=
  fun i => Finset.univ.inf fun m : Fin 4096 => d2 X Y (i 0) (i 1) m

/-- For each point of `Y`, the least squared distance to a point of `X`. -/
def distX (X Y : (⟨3, ![8, 4096, 3]⟩ : Shape).Idx → EReal) : (⟨2, ![8, 4096]⟩ : Shape).Idx → EReal :=
  fun i => Finset.univ.inf fun n : Fin 4096 => d2 X Y (i 0) n (i 1)

/-- The same squared distance inside one tile of the kernel: `xb` is a tile [1, 1024, 3] of `X`'s rows,
    `yb` a whole batch of `Y` transposed, [1, 3, 4096]. -/
def tileD2 (xb : (⟨3, ![1, 1024, 3]⟩ : Shape).Idx → EReal) (yb : (⟨3, ![1, 3, 4096]⟩ : Shape).Idx → EReal)
    (r : Fin 1024) (m : Fin 4096) : EReal :=
  ((∑ d : Fin 3, xb (ix3 0 r d) * xb (ix3 0 r d)) + (∑ d : Fin 3, yb (ix3 0 d m) * yb (ix3 0 d m)))
    - 2 * ∑ d : Fin 3, xb (ix3 0 r d) * yb (ix3 0 d m)

end Cert.Chamfer

end
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.KIBlocks.lean ====
/-
  The blocks the kernel reads at a grid point, as entries of the two point clouds.

  Point `t` of the grid is batch `t / 4`, row tile `t % 4`. Window 0's block there is rows `(t % 4)·1024 …` of batch
  `t / 4` of the first cloud; window 1's block is all of batch `t / 4` of the second cloud transposed by the host line
  before the region, so its entry `(0, d, m)` is coordinate `d` of point `m`. The tile's squared distances are therefore
  the clouds' squared distances at the rows the tile covers, and the blocks' entries are real when the clouds' are.
-/
import proofs.«134267_j10625749090595_2_alg».proof.Proof.KIBody
import proofs.«134267_j10625749090595_2_alg».proof.Proof.Spec
import proofs.«134267_j10625749090595_2_alg».proof.Proof.LibRealEntries
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Chamfer Cert.LibRealEntries

variable (m : (ℓ : Loc nD τ sig) → Buf (Elt Ideal) ℓ)

/-- The printed index maps over the grid: batch `t / 4` on the leading axis of every window, row tile `t % 4` on the
    row axis of windows 0 and 2, zero elsewhere. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

open Idealize.ShloMosaic.StableHlo in
/-- The region finds, in window 1's array, the second cloud with its last two axes exchanged. -/
theorem V_v0 (c : Dev nD) : (V m c main_v0 : S8x3x4096.Idx → EReal)
    = transpose S8x3x4096 [0, 2, 1] (m ((c : Thread nD τ).loc main_arg1) : S8x4096x3.Idx → EReal) transposes_S8x4096x3_S8x3x4096_0_2_1 := by
  show StableHlo.after hostOps0 (fun b => m (c, b)) (Proc.devRef .tc main_v0) = _
  after_results

/-- Window 0's block at point `t`: rows of batch `t / 4` of the first cloud, from row `(t % 4)·1024`. -/
theorem iblk0_apply (c : Dev nD) (t : Fin cfg0.N) (r : Fin 1024) (d : Fin 3) (b : Fin 8) (hb : b.val = t.val / 4)
    (nn : Fin 4096) (hnn : nn.val = t.val % 4 * 1024 + r.val) :
    iblk m c 0 t (ix3 0 r d) = (m ((c : Thread nD τ).loc main_arg0) : S8x4096x3.Idx → EReal) (ix3 b nn d) := by
  obtain ⟨e0, e1, e2, -⟩ := idx_facts t
  show V m c main_arg0 (((cfg0.win 0).blk t).view.emb (ix3 0 r d)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = nn.val; omega
  | ⟨2, _⟩ => show win0_0.index t (2 : Fin 3) * 3 + 1 * d.val = d.val; omega

/-- Window 1's block at point `t`: batch `t / 4` of the second cloud, coordinate-major. -/
theorem iblk1_apply (c : Dev nD) (t : Fin cfg0.N) (d : Fin 3) (mm : Fin 4096) (b : Fin 8) (hb : b.val = t.val / 4) :
    iblk m c 1 t (ix3 0 d mm) = (m ((c : Thread nD τ).loc main_arg1) : S8x4096x3.Idx → EReal) (ix3 b mm d) := by
  obtain ⟨-, -, -, e0, e1, e2, -⟩ := idx_facts t
  show V m c main_v0 (((cfg0.win 1).blk t).view.emb (ix3 0 d mm)) = _
  rw [V_v0]
  have e : ((cfg0.win 1).blk t).view.emb (ix3 0 d mm) = (ix3 b d mm : S8x3x4096.Idx) := by
    refine funext fun a => Fin.ext ?_
    match a with
    | ⟨0, _⟩ => show win0_1.index t (0 : Fin 3) * 1 + 1 * 0 = b.val; omega
    | ⟨1, _⟩ => show win0_1.index t (1 : Fin 3) * 3 + 1 * d.val = d.val; omega
    | ⟨2, _⟩ => show win0_1.index t (2 : Fin 3) * 4096 + 1 * mm.val = mm.val; omega
  rw [e]
  exact transpose_ix3_021_apply _ _ b d mm

/-- The squared distance inside the tile of point `t` is the clouds' squared distance at the row the tile's row `r` is. -/
theorem tile_eq (c : Dev nD) (t : Fin cfg0.N) (r : Fin 1024) (mm : Fin 4096) (b : Fin 8) (hb : b.val = t.val / 4)
    (nn : Fin 4096) (hnn : nn.val = t.val % 4 * 1024 + r.val) :
    tileD2 (iblk m c 0 t) (iblk m c 1 t) r mm
      = d2 (m ((c : Thread nD τ).loc main_arg0)) (m ((c : Thread nD τ).loc main_arg1)) b nn mm := by
  unfold tileD2 d2
  simp only [iblk0_apply m c t r _ b hb nn hnn, iblk1_apply m c t _ mm b hb]

/-- The blocks' entries are entries of the clouds: real when those are. -/
theorem real0 (c : Dev nD) (hX : ∀ i, IsReal ((m ((c : Thread nD τ).loc main_arg0) : S8x4096x3.Idx → EReal) i)) (t : Fin cfg0.N) :
    ∀ i, IsReal (iblk m c 0 t i) := fun i => by
  show IsReal (V m c main_arg0 (((cfg0.win 0).blk t).view.emb i))
  rw [V_main_arg0]; exact hX _
theorem real1 (c : Dev nD) (hY : ∀ i, IsReal ((m ((c : Thread nD τ).loc main_arg1) : S8x4096x3.Idx → EReal) i)) (t : Fin cfg0.N) :
    ∀ i, IsReal (iblk m c 1 t i) := fun i => by
  show IsReal (V m c main_v0 (((cfg0.win 1).blk t).view.emb i))
  rw [V_v0]; unfold transpose; exact hY _

end Cert.KernelIdeal.HandValue

end
-- ==== Proof.LibBlockedInf.lean ====
/-
  A greatest lower bound over `Fin N` taken block by block.

  For a function `g` on `Fin N` with values in a meet-semilattice with a top, `(below N k).inf g` is the meet of `g`
  over the indices smaller than `k`: the top for `k = 0`, the meet over everything once `N ≤ k`, and going from
  `k·bs` to `(k+1)·bs` meets it with the meet over the `k`-th block of `bs` consecutive indices. This is the
  arithmetic of a running minimum that visits one tile of an axis per step. In a linear order the fold of `min`
  from the top is this meet.
-/
import Mathlib.Data.Finset.Lattice.Fold
import Mathlib.Data.Fintype.Basic
import Mathlib.Order.Lattice
import Mathlib.Tactic.Ring
import Mathlib.Tactic.Linarith

namespace BlockedInf

variable {α : Type*}

/-- The indices of `Fin N` smaller than `k`. -/
def below (N k : ℕ) : Finset (Fin N) := Finset.univ.filter fun c => c.val < k

theorem mem_below {N k : ℕ} (c : Fin N) : c ∈ below N k ↔ c.val < k := by
  simp [below]

theorem below_zero (N : ℕ) : below N 0 = ∅ := by
  ext c; simp [mem_below]

theorem below_of_le {N k : ℕ} (h : N ≤ k) : below N k = Finset.univ := by
  ext c; simp only [mem_below, Finset.mem_univ, iff_true]; exact lt_of_lt_of_le c.isLt h

/-- The `q`-th index of the `k`-th block of `bs` consecutive indices. -/
def blockIdx (N bs k : ℕ) (h : (k + 1) * bs ≤ N) (q : Fin bs) : Fin N :=
  ⟨k * bs + q.val, by have := q.isLt; have : (k + 1) * bs = k * bs + bs := by ring
                      omega⟩

@[simp] theorem blockIdx_val (N bs k : ℕ) (h : (k + 1) * bs ≤ N) (q : Fin bs) :
    (blockIdx N bs k h q).val = k * bs + q.val := rfl

/-- The indices below `(k+1)·bs` are those below `k·bs` together with the `k`-th block. -/
theorem below_succ_block (N bs k : ℕ) (h : (k + 1) * bs ≤ N) :
    below N ((k + 1) * bs) = below N (k * bs) ∪ Finset.univ.image (blockIdx N bs k h) := by
  have e : (k + 1) * bs = k * bs + bs := by ring
  ext c
  simp only [mem_below, Finset.mem_union, Finset.mem_image, Finset.mem_univ, true_and]
  constructor
  · intro hc
    by_cases hlt : c.val < k * bs
    · exact Or.inl hlt
    · exact Or.inr ⟨⟨c.val - k * bs, by omega⟩, Fin.ext (by simp only [blockIdx_val]; omega)⟩
  · rintro (hc | ⟨q, rfl⟩)
    · omega
    · have := q.isLt; simp only [blockIdx_val]; omega

variable [SemilatticeInf α] [OrderTop α]

theorem inf_below_zero (N : ℕ) (g : Fin N → α) : (below N 0).inf g = ⊤ := by
  rw [below_zero, Finset.inf_empty]

theorem inf_below_of_le {N k : ℕ} (h : N ≤ k) (g : Fin N → α) : (below N k).inf g = Finset.univ.inf g := by
  rw [below_of_le h]

/-- One step of a running meet: the meet below `(k+1)·bs` is the meet below `k·bs` met with the meet over block `k`. -/
theorem inf_below_succ_block (N bs k : ℕ) (h : (k + 1) * bs ≤ N) (g : Fin N → α) :
    (below N ((k + 1) * bs)).inf g
      = (below N (k * bs)).inf g ⊓ (Finset.univ : Finset (Fin bs)).inf fun q => g (blockIdx N bs k h q) := by
  classical
  rw [below_succ_block N bs k h, Finset.inf_union, Finset.inf_image]
  rfl

end BlockedInf

/-- In a linear order with a top, folding `min` from the top over a finite set is the set's greatest lower bound. -/
theorem Finset.fold_min_top_eq_inf {α ι : Type*} [LinearOrder α] [OrderTop α] (s : Finset ι) (f : ι → α) :
    s.fold min ⊤ f = s.inf f := by
  classical
  induction s using Finset.induction_on with
  | empty => simp
  | insert a s ha ih => rw [Finset.fold_insert ha, Finset.inf_insert, ih]
-- ==== Proof.LibMinForms.lean ====
/-
  Minima along the rows and along the columns of a matrix, read at an index.

  A float minimum of a matrix `[a, b]` along its second axis, started from the word of +∞, is at `i` the greatest lower
  bound of row `i`; along its first axis it is at `j` the greatest lower bound of column `j`. The word of +∞ is the top
  of the extended reals, so the fold of `min` from it over the reduced coordinates is that bound. Every index is written
  by its coordinates.
-/
import Idealize.ShloMosaic.PureOps.Ideal.Laws
import Idealize.ShloMosaic.Lib.ValueIdx
import proofs.«134267_j10625749090595_2_alg».proof.Proof.LibBlockedInf

namespace Cert.MinForms

open Idealize.ShloMosaic Idealize.ShloMosaic.ValueIdx

/-- The float word of +∞ denotes the top of the extended reals. -/
theorem ofBits_top_f32 : Ideal.ofBits .f32 0x7F800000#32 = (⊤ : EReal) := by simp [Ideal.ofBits, Ideal.ieee]

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The index of the matrix that reduces to `j` along the first axis and has `k` there is `(k, j)`. -/
theorem lift_col {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext d; apply Fin.ext
  match d with
  | ⟨0, _⟩ => rfl
  | ⟨1, _⟩ => rfl

/-- A float minimum along the rows, from the word of +∞, at `i`: the greatest lower bound of row `i`. -/
theorem multiReduction_min_rows {a b : ℕ} (src : FVec Ideal ⟨2, ![a, b]⟩ .f32)
    (h : (⟨2, ![a, b]⟩ : Shape).Reduces [1] ⟨1, ![a]⟩) (i : Fin a) :
    multiReduction .minimumf [1] ⟨1, ![a]⟩ src 0x7F800000#32 h (.inl rfl) rfl (ix1 i)
      = (Finset.univ : Finset (Fin b)).inf fun k => src (ix2 i k) := by
  refine (multiReduction_minimumf_eq_fold src 0x7F800000#32 h (.inl rfl) rfl (ix1 i)).trans ?_
  refine (h.fold_filter_drop_single _ _ src (ix1 i)).trans ?_
  show Finset.fold (min : EReal → EReal → EReal) (Ideal.ofBits .f32 0x7F800000#32) _ _ = _
  rw [ofBits_top_f32, Finset.fold_min_top_eq_inf]
  exact Finset.inf_congr rfl fun k _ => congrArg src (lift_row h i k)

/-- A float minimum along the columns, from the word of +∞, at `j`: the greatest lower bound of column `j`. -/
theorem multiReduction_min_cols {a b : ℕ} (src : FVec Ideal ⟨2, ![a, b]⟩ .f32)
    (h : (⟨2, ![a, b]⟩ : Shape).Reduces [0] ⟨1, ![b]⟩) (j : Fin b) :
    multiReduction .minimumf [0] ⟨1, ![b]⟩ src 0x7F800000#32 h (.inl rfl) rfl (ix1 j)
      = (Finset.univ : Finset (Fin a)).inf fun k => src (ix2 k j) := by
  refine (multiReduction_minimumf_eq_fold src 0x7F800000#32 h (.inl rfl) rfl (ix1 j)).trans ?_
  refine (h.fold_filter_drop_single _ _ src (ix1 j)).trans ?_
  show Finset.fold (min : EReal → EReal → EReal) (Ideal.ofBits .f32 0x7F800000#32) _ _ = _
  rw [ofBits_top_f32, Finset.fold_min_top_eq_inf]
  exact Finset.inf_congr rfl fun k _ => congrArg src (lift_col h j k)

end Cert.MinForms
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.KPayload.lean ====
/-
  The arithmetic of one tile, read entry by entry over the extended reals.

  A tile pairs 1024 points of X (the rows `xb (0, r, ·)`) with all 4096 points of one batch of Y, stored transposed
  (`yb (0, ·, m)`). Its matrix of squared distances is formed as
      (Σ_d xb(0,r,d)²) + (Σ_d yb(0,d,m)²) + Σ_d (xb(0,r,d)·(-2))·yb(0,d,m):
  the two squared norms are sums of three squares along a row of the points and along a column of the transposed
  points, spread over the matrix as a column and as a row; the last term is a matrix product whose left operand
  already carries the factor -2. When every coordinate is a real number the three sums are real, the factor moves
  across the sum, and adding -2·⟨x, y⟩ is subtracting 2·⟨x, y⟩: the entry is the expanded squared distance
  `tileD2 xb yb r m`. The row minima of that matrix are the least distance from each point of the tile to the
  points of Y; its column minima are, for each point of Y, the least distance to the points of the tile; a running
  column minimum takes the smaller of the stored one and the tile's.
-/
import proofs.«134267_j10625749090595_2_alg».proof.Proof.Gen.KernelIdeal.Skeleton
import proofs.«134267_j10625749090595_2_alg».proof.Proof.Spec
import proofs.«134267_j10625749090595_2_alg».proof.Proof.LibMinForms
import proofs.«134267_j10625749090595_2_alg».proof.Proof.LibPlainMatmul
import proofs.«134267_j10625749090595_2_alg».proof.Proof.LibRowForms
import proofs.«134267_j10625749090595_2_alg».proof.Proof.LibColumnForms
import proofs.«134267_j10625749090595_2_alg».proof.Proof.LibRealEntries
import Idealize.ShloMosaic.Lib.ValueLayout

noncomputable section

namespace Cert.KernelIdeal.PayloadForms

open Idealize.ShloMosaic Idealize.ShloMosaic.ValueIdx Cert.KernelIdeal Cert.KernelIdeal.Gen Cert.LibRealEntries

/-- The float word of the factor folded into the left operand is the real number -2. -/
theorem ofBits_neg_two : Ideal.ofBits .f32 0xC0000000#32 = ((-2 : ℝ) : EReal) := by
  simp [Ideal.ofBits, Ideal.ieee, -EReal.coe_mul]; norm_num

/-- A float sum along the columns, from the zero word, at `j`: the sum of column `j`. -/
theorem multiReduction_add_cols {a b : ℕ} (src : FVec Ideal ⟨2, ![a, b]⟩ .f32)
    (h : (⟨2, ![a, b]⟩ : Shape).Reduces [0] ⟨1, ![b]⟩) (j : Fin b) :
    multiReduction (F := Ideal) .add [0] ⟨1, ![b]⟩ src 0x00000000#32 h (.inl rfl) rfl (ix1 j) = ∑ k : Fin a, src (ix2 k j) :=
  (Ideal.multiReduction_add_single src 0x00000000#32 h (.inl rfl) rfl (ix1 j)).trans
    (Finset.sum_congr rfl fun k _ => congrArg src (Cert.MinForms.lift_col h j k))

/-- Entry `(r, m)` of the tile's matrix as the kernel forms it: the squared norm of row `r` of the points (a row sum
    laid out as a column and spread along the rows), plus the squared norm of column `m` of the transposed points (a
    column sum laid out as a row and spread down the columns), plus the product of the points scaled by the word of -2
    with the transposed points, a sum over the three coordinates. No finiteness is needed for this reading. -/
theorem pay1_raw (xb : Vec Ideal S1x1024x3 .f32) (yb : Vec Ideal S1x3x4096 .f32) (r : Fin 1024) (m : Fin 4096) :
    k0_pay1 (F := Ideal) xb yb (ix2 r m)
      = ((∑ d : Fin 3, xb (ix3 0 r d) * xb (ix3 0 r d)) + (∑ d : Fin 3, yb (ix3 0 d m) * yb (ix3 0 d m)))
        + ∑ d : Fin 3, (xb (ix3 0 r d) * Ideal.ofBits .f32 0xC0000000#32) * yb (ix3 0 d m) := by
  unfold k0_pay1
  refine (addf_apply _ _ _).trans ?_
  refine congrArg₂ (· + ·) ?_ ?_
  · refine (addf_apply _ _ _).trans ?_
    refine congrArg₂ (· + ·) ?_ ?_
    · -- the squared norm of point r: column, then row sum, then squares of the tile's entries
      refine (Cert.ColumnForms.broadcastTo_a1_ab_apply _ _ r m).trans ?_
      refine (Cert.ColumnForms.shapeCast_a_a1_apply _ _ r (0 : Fin 1)).trans ?_
      refine (Cert.RowForms.multiReduction_add_rows _ _ r).trans ?_
      refine Finset.sum_congr rfl fun d _ => ?_
      refine (mulf_apply _ _ _).trans ?_
      exact congrArg₂ (· * ·) (shapeCast_1ab_ab_apply xb _ r d) (shapeCast_1ab_ab_apply xb _ r d)
    · -- the squared norm of point m of the transposed cloud: row, then column sum, then squares
      refine (broadcastTo_1b_ab_apply _ _ r m).trans ?_
      refine (shapeCast_a_1a_apply _ _ (0 : Fin 1) m).trans ?_
      refine (multiReduction_add_cols _ _ m).trans ?_
      refine Finset.sum_congr rfl fun d _ => ?_
      refine (mulf_apply _ _ _).trans ?_
      exact congrArg₂ (· * ·) (shapeCast_1ab_ab_apply yb _ d m) (shapeCast_1ab_ab_apply yb _ d m)
  · -- the product into the zero matrix: a sum over the three coordinates
    refine (Cert.PointConv.plainMatmul_zero_apply _ none _ _ r m).trans ?_
    refine Finset.sum_congr rfl fun d _ => ?_
    refine congrArg₂ (· * ·) ?_ (shapeCast_1ab_ab_apply yb _ d m)
    refine (mulf_apply _ _ _).trans ?_
    exact congrArg₂ (· * ·) (shapeCast_1ab_ab_apply xb _ r d) rfl

/-- With real coordinates, folding the factor -2 into one operand of the inner product and adding is subtracting
    twice the inner product: all three sums are real, so the factor moves across the sum. -/
theorem expand_law (u v : Fin 3 → ℝ) :
    ((∑ d, (u d : EReal) * (u d : EReal)) + (∑ d, (v d : EReal) * (v d : EReal)))
        + ∑ d, ((u d : EReal) * ((-2 : ℝ) : EReal)) * (v d : EReal)
      = ((∑ d, (u d : EReal) * (u d : EReal)) + (∑ d, (v d : EReal) * (v d : EReal)))
        - 2 * ∑ d, (u d : EReal) * (v d : EReal) := by
  have h2 : (2 : EReal) = ((2 : ℝ) : EReal) := by norm_cast
  rw [h2]
  simp only [Fin.sum_univ_three, ← EReal.coe_mul, ← EReal.coe_add, ← EReal.coe_sub]
  exact congrArg (fun t : ℝ => (t : EReal)) (by ring)

/-- Entry `(r, m)` of the tile's matrix, for real coordinates, is the expanded squared distance between point `r` of the
    tile and point `m` of the other cloud. -/
theorem pay1_apply (xb : Vec Ideal S1x1024x3 .f32) (yb : Vec Ideal S1x3x4096 .f32)
    (hx : ∀ i, IsReal (xb i)) (hy : ∀ i, IsReal (yb i)) (r : Fin 1024) (m : Fin 4096) :
    k0_pay1 (F := Ideal) xb yb (ix2 r m) = Cert.Chamfer.tileD2 xb yb r m := by
  refine (pay1_raw xb yb r m).trans ?_
  choose fx hfx using hx
  choose fy hfy using hy
  unfold Cert.Chamfer.tileD2
  rw [ofBits_neg_two]
  simp only [hfx, hfy]
  exact expand_law (fun d => fx (ix3 0 r d)) (fun d => fy (ix3 0 d m))

/-- The row minima, laid out as `[1, 1024, 1]`: at `(0, r, 0)` the least squared distance from point `r` of the tile to
    the 4096 points of the other cloud. -/
theorem pay2_apply (xb : Vec Ideal S1x1024x3 .f32) (yb : Vec Ideal S1x3x4096 .f32)
    (hx : ∀ i, IsReal (xb i)) (hy : ∀ i, IsReal (yb i)) (r : Fin 1024) :
    k0_pay2 (F := Ideal) xb yb (ix3 0 r 0) = Finset.univ.inf fun m : Fin 4096 => Cert.Chamfer.tileD2 xb yb r m := by
  unfold k0_pay2
  refine (shapeCast_ab_1ab_apply _ _ (0 : Fin 1) r (0 : Fin 1)).trans ?_
  refine (Cert.ColumnForms.shapeCast_a_a1_apply _ _ r (0 : Fin 1)).trans ?_
  refine (Cert.MinForms.multiReduction_min_rows _ _ r).trans ?_
  exact Finset.inf_congr rfl fun m _ => pay1_apply xb yb hx hy r m

/-- The column minima, laid out as `[1, 4096]`: at `(0, m)` the least squared distance from point `m` of the other cloud
    to the 1024 points of the tile. -/
theorem pay3_apply (xb : Vec Ideal S1x1024x3 .f32) (yb : Vec Ideal S1x3x4096 .f32)
    (hx : ∀ i, IsReal (xb i)) (hy : ∀ i, IsReal (yb i)) (m : Fin 4096) :
    k0_pay3 (F := Ideal) xb yb (ix2 0 m) = Finset.univ.inf fun r : Fin 1024 => Cert.Chamfer.tileD2 xb yb r m := by
  unfold k0_pay3
  refine (shapeCast_a_1a_apply _ _ (0 : Fin 1) m).trans ?_
  refine (Cert.MinForms.multiReduction_min_cols _ _ m).trans ?_
  exact Finset.inf_congr rfl fun r _ => pay1_apply xb yb hx hy r m

/-- The first tile's column minima stored as `[1, 1, 4096]`: the same entries under one more unit axis. -/
theorem pay4_apply (xb : Vec Ideal S1x1024x3 .f32) (yb : Vec Ideal S1x3x4096 .f32) (m : Fin 4096) :
    k0_pay4 (F := Ideal) xb yb (ix3 0 0 m) = k0_pay3 (F := Ideal) xb yb (ix2 0 m) := by
  unfold k0_pay4
  exact shapeCast_ab_1ab_apply _ _ (0 : Fin 1) (0 : Fin 1) m

/-- A later tile's update of the running column minima: the smaller of the stored entry and the tile's. -/
theorem pay5_apply (xb : Vec Ideal S1x1024x3 .f32) (yb : Vec Ideal S1x3x4096 .f32) (old : Vec Ideal S1x1x4096 .f32)
    (m : Fin 4096) :
    k0_pay5 (F := Ideal) xb yb old (ix3 0 0 m) = min (old (ix3 0 0 m)) (k0_pay3 (F := Ideal) xb yb (ix2 0 m)) := by
  unfold k0_pay5
  refine (shapeCast_ab_1ab_apply _ _ (0 : Fin 1) (0 : Fin 1) m).trans ?_
  refine (minimumf_apply _ _ _).trans ?_
  exact congrArg (fun v => min v (k0_pay3 (F := Ideal) xb yb (ix2 0 m)))
    (shapeCast_1ab_ab_apply old _ (0 : Fin 1) m)

end Cert.KernelIdeal.PayloadForms

end
-- ==== Proof.KIFinalY.lean ====
/-
  Window 2 after the run: the row minima are the least distances from the points of the first cloud.

  Point `t` of the grid (batch `t / 4`, row tile `t % 4`) writes back to rows `(t % 4)·1024 … (t % 4)·1024 + 1023`
  of batch `t / 4` of the [8, 4096, 1] array the row minima of its tile: for row `r` of the tile the greatest lower
  bound, over the 4096 points of the second cloud, of the tile's squared distance, which is the clouds' squared
  distance at row `(t % 4)·1024 + r`. The 32 blocks tile the array (row `n` of batch `b` lies in the block of point
  `4·b + n / 1024`) and every point writes its block back, so the array ends holding, at `(b, n, 0)`, the least
  squared distance from point `n` of batch `b` of the first cloud to the second cloud.
-/
import proofs.«134267_j10625749090595_2_alg».proof.Proof.KIBlocks
import proofs.«134267_j10625749090595_2_alg».proof.Proof.KPayload
import proofs.«134267_j10625749090595_2_alg».proof.Proof.Spec
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Chamfer Cert.LibRealEntries Cert.KernelIdeal.PayloadForms

variable (m : (ℓ : Loc nD τ sig) → Buf (Elt Ideal) ℓ)

/-- What window 2's array ends holding: at `(b, n, 0)` the least squared distance from point `n` of batch `b` of the
    first cloud to the points of the second. -/
def GY (c : Dev nD) : S8x4096x1.Idx → EReal := fun j =>
  distY (m ((c : Thread nD τ).loc main_arg0) : S8x4096x3.Idx → EReal) (m ((c : Thread nD τ).loc main_arg1) : S8x4096x3.Idx → EReal)
    (ix2 (j 0) (j 1))

/-- An index of a block `[1, a, 1]` is `(0, r, 0)` for its middle coordinate `r`. -/
theorem idx_1a1 {a : ℕ} (j : (⟨3, ![1, a, 1]⟩ : Shape).Idx) : j = ix3 (0 : Fin 1) (j 1) (0 : Fin 1) := by
  funext d
  match d with
  | ⟨0, h⟩ =>
    apply Fin.ext
    have h1 : (j ⟨0, h⟩).val < 1 := (j ⟨0, h⟩).isLt
    show (j ⟨0, h⟩).val = 0
    omega
  | ⟨1, _⟩ => rfl
  | ⟨2, h⟩ =>
    apply Fin.ext
    have h1 : (j ⟨2, h⟩).val < 1 := (j ⟨2, h⟩).isLt
    show (j ⟨2, h⟩).val = 0
    omega

/-- What point `t` writes back to window 2 is block `t` of `GY`. -/
theorem flushedY (c : Dev nD) (hX : ∀ i, IsReal ((m ((c : Thread nD τ).loc main_arg0) : S8x4096x3.Idx → EReal) i))
    (hY : ∀ i, IsReal ((m ((c : Thread nD τ).loc main_arg1) : S8x4096x3.Idx → EReal) i)) (t : Fin cfg0.N) :
    (dats m 0 c).flushed 2 t = ((cfg0.win 2).blk t).view.read (Elt Ideal) (GY m c) := by
  show (cfg0.win 2).cut (grid0.coords t) ((dats m 0 c).after 2 t) = _
  rw [after0_2]
  refine funext fun (j : S1x1024x1.Idx) => ?_
  show k0_pay2 (F := Ideal) (iblk m c 0 t) (iblk m c 1 t) j = GY m c (((cfg0.win 2).blk t).view.emb j)
  obtain ⟨r, rfl⟩ : ∃ r : Fin 1024, j = ix3 (0 : Fin 1) r (0 : Fin 1) := ⟨j 1, idx_1a1 j⟩
  refine (pay2_apply (iblk m c 0 t) (iblk m c 1 t) (real0 m c hX t) (real1 m c hY t) r).trans ?_
  have hN : t.val < 32 := lt_of_lt_of_eq t.isLt (show cfg0.N = 32 from N_0)
  have hr : r.val < 1024 := r.isLt
  obtain ⟨b, hb⟩ : ∃ b : Fin 8, b.val = t.val / 4 := ⟨⟨t.val / 4, by omega⟩, rfl⟩
  obtain ⟨nn, hnn⟩ : ∃ nn : Fin 4096, nn.val = t.val % 4 * 1024 + r.val := ⟨⟨t.val % 4 * 1024 + r.val, by omega⟩, rfl⟩
  have e : ((cfg0.win 2).blk t).view.emb (ix3 (0 : Fin 1) r (0 : Fin 1)) = (ix3 b nn (0 : Fin 1) : S8x4096x1.Idx) := by
    obtain ⟨-, -, -, -, -, -, e0, e1, e2, -⟩ := idx_facts t
    refine funext fun a => Fin.ext ?_
    match a with
    | ⟨0, _⟩ => show win0_2.index t (0 : Fin 3) * 1 + 1 * 0 = b.val; omega
    | ⟨1, _⟩ => show win0_2.index t (1 : Fin 3) * 1024 + 1 * r.val = nn.val; omega
    | ⟨2, _⟩ => show win0_2.index t (2 : Fin 3) * 1 + 1 * 0 = 0; omega
  rw [e]
  show _ = (Finset.univ : Finset (Fin 4096)).inf fun mm =>
    d2 (m ((c : Thread nD τ).loc main_arg0) : S8x4096x3.Idx → EReal) (m ((c : Thread nD τ).loc main_arg1) : S8x4096x3.Idx → EReal) b nn mm
  exact Finset.inf_congr rfl fun mm _ => tile_eq m c t r mm b hb nn hnn

/-- An index of the array is in point `t`'s block iff each coordinate is in the block's range on its axis. -/
theorem mem_blkY (t : Fin cfg0.N) (i : S8x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v1_0).slice (win0_2.rect t)).set ↔ _
  rw [View.set_slice_whole, Rect.mem_set_unit]
  exact Iff.rfl

/-- Every entry of the array lies in the block of a point that writes it back: row `n` of batch `b` in the block of
    point `4·b + n / 1024`. -/
theorem coverY (i : S8x4096x1.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 1 := (i 2).isLt
  have hN : cfg0.N = 32 := N_0
  obtain ⟨t, ht⟩ : ∃ t : Fin cfg0.N, t.val = (i 0).val * 4 + (i 1).val / 1024 :=
    ⟨⟨(i 0).val * 4 + (i 1).val / 1024, by rw [hN]; omega⟩, rfl⟩
  refine ⟨t, flush0_2 t, ?_⟩
  rw [mem_blkY]
  obtain ⟨-, -, -, -, -, -, e0, e1, e2, -⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- Window 2's array after the run: the least squared distances from the points of the first cloud. -/
theorem finalY (c : Dev nD) (hX : ∀ i, IsReal ((m ((c : Thread nD τ).loc main_arg0) : S8x4096x3.Idx → EReal) i))
    (hY : ∀ i, IsReal ((m ((c : Thread nD τ).loc main_arg1) : S8x4096x3.Idx → EReal) i)) :
    (dats m 0 c).arrAt 2 cfg0.N = GY m c :=
  (dats m 0 c).arrAt_eq_of_cover 2 (GY m c) (fun t _ => flushedY m c hX hY t) (fun i => coverY i)

end Cert.KernelIdeal.HandValue

end
-- ==== Proof.KIFinalX.lean ====
/-
  The least distances of the second cloud's points, from the running column minima.

  Within a batch the four row tiles are visited in order and window 3's block does not move: its buffer holds, after
  tile k, for each point of the second cloud the least squared distance to the first (k + 1)·1024 points of the first
  cloud — the first tile stores its column minima, each later tile takes the smaller of the stored entry and its own
  column minima, and a greatest lower bound over the rows below (k + 1)·1024 is the one over the rows below k·1024 met
  with the one over block k. After the fourth tile the bound is over all 4096 rows; that is the point at which the block
  is written back, to row (batch, 0, ·) of the array. The written blocks, one per batch, cover the array, so it ends
  holding for every point of the second cloud its least squared distance to the first cloud.
-/
import proofs.«134267_j10625749090595_2_alg».proof.Proof.KIBlocks
import proofs.«134267_j10625749090595_2_alg».proof.Proof.KPayload
import proofs.«134267_j10625749090595_2_alg».proof.Proof.Spec
import proofs.«134267_j10625749090595_2_alg».proof.Proof.LibBlockedInf
import proofs.«134267_j10625749090595_2_alg».proof.Proof.LibRealEntries
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.LibRealEntries Cert.KernelIdeal.PayloadForms

variable (m : (ℓ : Loc nD τ sig) → Buf (Elt Ideal) ℓ)

/-- For each point of the second cloud, laid out as `[8, 1, 4096]`: its least squared distance to the first cloud. -/
def GX (c : Dev nD) : S8x1x4096.Idx → EReal :=
  fun j => Cert.Chamfer.distX (m ((c : Thread nD τ).loc main_arg0)) (m ((c : Thread nD τ).loc main_arg1)) (ix2 (j 0) (j 2))

/-- The column minima of the tile at point `t` are the least squared distances to the rows of the whole array that the
    tile holds: block `t % 4` of the 1024-row blocks of batch `t / 4`. -/
theorem tileCol (c : Dev nD) (hX : ∀ i, IsReal ((m ((c : Thread nD τ).loc main_arg0) : S8x4096x3.Idx → EReal) i))
    (hY : ∀ i, IsReal ((m ((c : Thread nD τ).loc main_arg1) : S8x4096x3.Idx → EReal) i)) (t : Fin cfg0.N) (b : Fin 8) (hb : b.val = t.val / 4)
    (mm : Fin 4096) (h : (t.val % 4 + 1) * 1024 ≤ 4096) :
    k0_pay3 (F := Ideal) (iblk m c 0 t) (iblk m c 1 t) (ix2 0 mm)
      = Finset.univ.inf fun q : Fin 1024 =>
          Cert.Chamfer.d2 (m ((c : Thread nD τ).loc main_arg0)) (m ((c : Thread nD τ).loc main_arg1)) b
            (BlockedInf.blockIdx 4096 1024 (t.val % 4) h q) mm := by
  refine (pay3_apply (iblk m c 0 t) (iblk m c 1 t) (real0 m c hX t) (real1 m c hY t) mm).trans ?_
  exact Finset.inf_congr rfl fun r _ =>
    tile_eq m c t r mm b hb (BlockedInf.blockIdx 4096 1024 (t.val % 4) h r) rfl

/-- At the first tile of a batch the stored column minima are the least distances to the first 1024 rows of the batch. -/
theorem colMin_at_first (c : Dev nD) (hX : ∀ i, IsReal ((m ((c : Thread nD τ).loc main_arg0) : S8x4096x3.Idx → EReal) i)) (hY : ∀ i, IsReal ((m ((c : Thread nD τ).loc main_arg1) : S8x4096x3.Idx → EReal) i))
    (t : Fin cfg0.N) (h0 : t.val % 4 = 0) (b : Fin 8) (hb : b.val = t.val / 4) (mm : Fin 4096) :
    colMin m c t.val t.isLt (ix3 0 0 mm)
      = (BlockedInf.below 4096 ((t.val % 4 + 1) * 1024)).inf fun n' : Fin 4096 => Cert.Chamfer.d2 (m ((c : Thread nD τ).loc main_arg0)) (m ((c : Thread nD τ).loc main_arg1)) b n' mm := by
  have h : (t.val % 4 + 1) * 1024 ≤ 4096 := by omega
  have e : (BlockedInf.below 4096 (t.val % 4 * 1024)).inf
      (fun n' : Fin 4096 => Cert.Chamfer.d2 (m ((c : Thread nD τ).loc main_arg0)) (m ((c : Thread nD τ).loc main_arg1)) b n' mm) = ⊤ := by
    rw [h0, Nat.zero_mul]; exact BlockedInf.inf_below_zero 4096 _
  rw [colMin_first m c t h0]
  refine (pay4_apply (iblk m c 0 t) (iblk m c 1 t) mm).trans ?_
  refine (tileCol m c hX hY t b hb mm h).trans ?_
  rw [BlockedInf.inf_below_succ_block 4096 1024 (t.val % 4) h, e, top_inf_eq]

/-- THE RUNNING MINIMUM: after the body at position `n`, tile `n % 4` of batch `n / 4`, window 3's buffer holds at
    `(0, 0, mm)` the least squared distance from point `mm` of the second cloud to the rows of the first cloud seen so far
    in this batch, the first `(n % 4 + 1) · 1024`. -/
theorem colMin_inv (c : Dev nD) (hX : ∀ i, IsReal ((m ((c : Thread nD τ).loc main_arg0) : S8x4096x3.Idx → EReal) i)) (hY : ∀ i, IsReal ((m ((c : Thread nD τ).loc main_arg1) : S8x4096x3.Idx → EReal) i)) :
    ∀ (n : ℕ) (hn : n < cfg0.N) (b : Fin 8) (hb : b.val = n / 4) (mm : Fin 4096),
      colMin m c n hn (ix3 0 0 mm)
        = (BlockedInf.below 4096 ((n % 4 + 1) * 1024)).inf fun n' : Fin 4096 => Cert.Chamfer.d2 (m ((c : Thread nD τ).loc main_arg0)) (m ((c : Thread nD τ).loc main_arg1)) b n' mm := by
  intro n
  induction n with
  | zero =>
    intro hn b hb mm
    exact colMin_at_first m c hX hY ⟨0, hn⟩ (Nat.zero_mod 4) b hb mm
  | succ n ih =>
    intro hn b hb mm
    by_cases h0 : (n + 1) % 4 = 0
    · exact colMin_at_first m c hX hY ⟨n + 1, hn⟩ h0 b hb mm
    · have hN : n + 1 < 32 := lt_of_lt_of_eq hn (show cfg0.N = 32 from N_0)
      have h : ((n + 1) % 4 + 1) * 1024 ≤ 4096 := by omega
      have hk : (n + 1) % 4 = n % 4 + 1 := by omega
      have hb' : b.val = n / 4 := by omega
      have e : (BlockedInf.below 4096 ((n + 1) % 4 * 1024)).inf
            (fun n' : Fin 4096 => Cert.Chamfer.d2 (m ((c : Thread nD τ).loc main_arg0)) (m ((c : Thread nD τ).loc main_arg1)) b n' mm)
          = (BlockedInf.below 4096 ((n % 4 + 1) * 1024)).inf
            (fun n' : Fin 4096 => Cert.Chamfer.d2 (m ((c : Thread nD τ).loc main_arg0)) (m ((c : Thread nD τ).loc main_arg1)) b n' mm) := by rw [hk]
      refine (congrFun (colMin_later m c ⟨n + 1, hn⟩ h0) (ix3 0 0 mm)).trans ?_
      refine (pay5_apply (iblk m c 0 ⟨n + 1, hn⟩) (iblk m c 1 ⟨n + 1, hn⟩) (colMin m c n (Nat.lt_of_succ_lt hn)) mm).trans ?_
      rw [ih (Nat.lt_of_succ_lt hn) b hb' mm, tileCol m c hX hY ⟨n + 1, hn⟩ b hb mm h,
        BlockedInf.inf_below_succ_block 4096 1024 ((n + 1) % 4) h, e]

/-- A block index of window 3 has only its last coordinate free. -/
theorem idx_row (j : S1x1x4096.Idx) : j = ix3 (0 : Fin 1) (0 : Fin 1) (j 2) := by
  funext a
  match a with
  | ⟨0, _⟩ => exact Fin.ext (Nat.lt_one_iff.mp (j 0).isLt)
  | ⟨1, _⟩ => exact Fin.ext (Nat.lt_one_iff.mp (j 1).isLt)
  | ⟨2, _⟩ => rfl

/-- Where window 3's block at point `t` sits in its array: row `t / 4` of the batches, all 4096 columns. -/
theorem emb_row (t : Fin cfg0.N) (b : Fin 8) (hb : b.val = t.val / 4) (mm : Fin 4096) :
    ((cfg0.win 3).blk t).view.emb (ix3 (0 : Fin 1) (0 : Fin 1) mm) = ix3 b (0 : Fin 1) mm := by
  obtain ⟨-, -, -, -, -, -, -, -, -, e0, e1, e2⟩ := idx_facts t
  funext a; apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 4096 + 1 * mm.val = mm.val; omega

/-- WHAT A WRITING POINT WRITES BACK: at the last tile of a batch the running minimum has seen all 4096 rows, so the
    block written back is the batch's row of least distances. -/
theorem flushedX (c : Dev nD) (hX : ∀ i, IsReal ((m ((c : Thread nD τ).loc main_arg0) : S8x4096x3.Idx → EReal) i)) (hY : ∀ i, IsReal ((m ((c : Thread nD τ).loc main_arg1) : S8x4096x3.Idx → EReal) i))
    (t : Fin cfg0.N) (hf : (cfg0.win 3).flush t = true) :
    (dats m 0 c).flushed 3 t = ((cfg0.win 3).blk t).view.read (Elt Ideal) (GX m c) := by
  show (cfg0.win 3).cut (grid0.coords t) ((dats m 0 c).after 3 t) = _
  rw [after0_3]
  have h3 : t.val % 4 = 3 := (flush0_3 t).mp hf
  have hN : t.val < 32 := lt_of_lt_of_eq t.isLt (show cfg0.N = 32 from N_0)
  funext j
  obtain ⟨mm, rfl⟩ : ∃ mm : Fin 4096, j = ix3 (0 : Fin 1) (0 : Fin 1) mm := ⟨j 2, idx_row j⟩
  show colMin m c t.val t.isLt (ix3 0 0 mm) = GX m c (((cfg0.win 3).blk t).view.emb (ix3 (0 : Fin 1) (0 : Fin 1) mm))
  rw [emb_row t ⟨t.val / 4, by omega⟩ rfl mm, colMin_inv m c hX hY t.val t.isLt ⟨t.val / 4, by omega⟩ rfl mm,
    BlockedInf.inf_below_of_le (by omega)]
  rfl

/-- An index of window 3's array is in point `t`'s block iff each coordinate is in the block's range on its axis. -/
theorem mem_blkX (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every index of the array is in the block of a writing point: the last tile of its batch. -/
theorem coverX (i : S8x1x4096.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  obtain ⟨t, ht⟩ : ∃ t : Fin cfg0.N, t.val = (i 0).val * 4 + 3 :=
    ⟨⟨(i 0).val * 4 + 3, lt_of_lt_of_eq (by omega : (i 0).val * 4 + 3 < 32) (show cfg0.N = 32 from N_0).symm⟩, rfl⟩
  obtain ⟨-, -, -, -, -, -, -, -, -, e0, e1, e2⟩ := idx_facts t
  refine ⟨t, (flush0_3 t).mpr (by omega), ?_⟩
  rw [mem_blkX]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- THE ARRAY AFTER THE RUN: window 3's array holds, for every point of the second cloud, its least squared distance
    to the first cloud. -/
theorem finalX (c : Dev nD) (hX : ∀ i, IsReal ((m ((c : Thread nD τ).loc main_arg0) : S8x4096x3.Idx → EReal) i)) (hY : ∀ i, IsReal ((m ((c : Thread nD τ).loc main_arg1) : S8x4096x3.Idx → EReal) i)) :
    (dats m 0 c).arrAt 3 cfg0.N = GX m c :=
  (dats m 0 c).arrAt_eq_of_cover 3 (GX m c) (fun t hf => flushedX m c hX hY t hf) coverX

end Cert.KernelIdeal.HandValue

end
-- ==== Proof.KFinite.lean ====
/-
  Finite inputs are real entries.

  The precondition says, of each argument array, that every entry's absolute value is strictly below +∞: a
  conjunction, over all entries of both arrays, of the comparisons |x| < +∞. On the extended reals |x| = max x (-x)
  is +∞ exactly when x is +∞ or -∞, so an entry passing the comparison is a real number. Reading the conjunction back
  entry by entry gives: both argument arrays have real entries, on every device.
-/
import proofs.«134267_j10625749090595_2_alg».proof.Defs
import proofs.«134267_j10625749090595_2_alg».proof.Proof.Gen.Pre_finite_inputs
import proofs.«134267_j10625749090595_2_alg».proof.Proof.LibRealEntries
import Idealize.ShloMosaic.Lib.ReduceAll
import Idealize.ShloMosaic.Lib.ValueIdx

noncomputable section

namespace Cert.KernelIdeal.Finite

open Idealize.ShloMosaic Idealize.ShloMosaic.ValueIdx Idealize.SL.Sem Cert.LibRealEntries

/-- The scalar shape has one index. -/
instance scalarIdx_subsingleton : Subsingleton Cert.Pre_finite_inputs.S_.Idx := ⟨fun a b => funext fun d => d.elim0⟩

/-- An extended real whose absolute value is below the word of +∞ is a real number. -/
theorem isReal_of_abs_lt (x : EReal)
    (e : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at e
  induction x using EReal.rec with
  | bot => exact absurd e (by simp [Ideal.cmp])
  | coe r => exact ⟨r, rfl⟩
  | top => exact absurd e (by simp [Ideal.cmp])

/-- The predicate on two arrays, when it holds, makes every entry of both a real number: the final \`and\` splits into
    the two arrays' conjunctions, each conjunction into its entries' comparisons, and each comparison bounds an entry
    away from both infinities. -/
theorem real_of_fn (a b : FVec Ideal Cert.Pre_finite_inputs.S8x4096x3 .f32)
    (h : Cert.Pre_finite_inputs.fn (F := Ideal) a b = fun _ => 1#1) :
    (∀ i, IsReal (a i)) ∧ (∀ i, IsReal (b i)) := by
  have h0 := congrFun h ValueIdx.ix0
  dsimp only [Cert.Pre_finite_inputs.fn] at h0
  obtain ⟨h1, h2⟩ := IntOp.andi_eq_one.1 h0
  exact ⟨fun i => isReal_of_abs_lt (a i) (Host.reduce_andi_all _ _ _ _ ix0 h1 i),
    fun i => isReal_of_abs_lt (b i) (Host.reduce_andi_all _ _ _ _ ix0 h2 i)⟩

/-- Under the precondition both argument arrays have real entries, on every device. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i)) :=
  real_of_fn _ _ (h c)

end Cert.KernelIdeal.Finite

end
-- ==== Proof.KShapes.lean ====
/-
  The two results of the tiles, laid out with a unit axis, read as plain matrices.

  The least distances of the points of X come out as an array [8, 4096, 1], those of the points of Y as [8, 1, 4096];
  both are then read as [8, 4096]. Dropping a unit axis does not move an entry: entry (b, n) of the matrix sits at
  row-major position b·4096 + n, which is also the position of (b, n, 0) in the first layout and of (b, 0, n) in the
  second. So an array whose entry at (b, n, 0), or at (b, 0, n), is g (b, n) is read back as g itself.
-/
import proofs.«134267_j10625749090595_2_alg».proof.Proof.Gen.KernelIdeal
import Idealize.ShloMosaic.Lib.ValueIdx
import Idealize.ShloMosaic.Lib.Pipeline.Value
import Idealize.ShloMosaic.Lib.ValueLayout

namespace Cert.KernelIdeal.ShapeForms

open Idealize.ShloMosaic Idealize.ShloMosaic.ValueIdx Cert.KernelIdeal

/-- An array [8, 4096, 1] whose entry at (b, n, u) is `g (b, n)`, read as [8, 4096], is `g`. -/
theorem cast_rows {α : Type} (g : S8x4096.Idx → α) (h : S8x4096x1.ShapeCasts S8x4096) :
    shapeCast S8x4096 (fun j : S8x4096x1.Idx => g (ix2 (j 0) (j 1))) h = g := by
  funext i
  obtain ⟨p, q, rfl⟩ : ∃ (p : Fin 8) (q : Fin 4096), i = ix2 p q := ⟨i 0, i 1, eq_ix2 i⟩
  refine (shapeCast_apply _ h (ix2 p q) (ix3 p q (0 : Fin 1)) ?_).trans rfl
  rw [Shape.rowMajor_val_three, Shape.rowMajor_val_two]
  show (p.val * 4096 + q.val) * 1 + 0 = p.val * 4096 + q.val
  omega

/-- An array [8, 1, 4096] whose entry at (b, u, n) is `g (b, n)`, read as [8, 4096], is `g`. -/
theorem cast_cols {α : Type} (g : S8x4096.Idx → α) (h : S8x1x4096.ShapeCasts S8x4096) :
    shapeCast S8x4096 (fun j : S8x1x4096.Idx => g (ix2 (j 0) (j 2))) h = g := by
  funext i
  obtain ⟨p, q, rfl⟩ : ∃ (p : Fin 8) (q : Fin 4096), i = ix2 p q := ⟨i 0, i 1, eq_ix2 i⟩
  refine (shapeCast_apply _ h (ix2 p q) (ix3 p (0 : Fin 1) q) ?_).trans rfl
  rw [Shape.rowMajor_val_three, Shape.rowMajor_val_two]
  show (p.val * 1 + 0) * 4096 + q.val = p.val * 4096 + q.val
  omega

end Cert.KernelIdeal.ShapeForms
-- ==== Proof.KIValue.lean ====
/-
  The kernel program's result at the ideal instance.

  After the run, window 2's array holds, at (b, n, 0), the least squared distance from point n of the first cloud to
  the second cloud's points, and window 3's array, at (b, 0, m), the least squared distance from point m of the second
  cloud to the first cloud's points; the host lines after the region reshape both to [8, 4096] and apply the masked
  mean, so the program's result is the masked-mean function of the two distance arrays of the specification. The
  clouds' entries are real under the precondition, which is what the tile's arithmetic needs.
-/
import proofs.«134267_j10625749090595_2_alg».proof.Proof.KIRun
import proofs.«134267_j10625749090595_2_alg».proof.Proof.KITail
import proofs.«134267_j10625749090595_2_alg».proof.Proof.KIFinalY
import proofs.«134267_j10625749090595_2_alg».proof.Proof.KIFinalX
import proofs.«134267_j10625749090595_2_alg».proof.Proof.KFinite
import proofs.«134267_j10625749090595_2_alg».proof.Proof.KShapes
import proofs.«134267_j10625749090595_2_alg».proof.Proof.RefTail
import proofs.«134267_j10625749090595_2_alg».proof.Defs
import Idealize.ShloMosaic.Lib.Pipeline.FrameSuffix

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Chamfer Cert.LibRealEntries

variable (m : (ℓ : Loc nD τ sig) → Buf (Elt Ideal) ℓ)

variable (ρ : Dev nD → PrngReg)

/-- What the later host lines leave in the result buffer: the masked-mean function of the specification's two
    distance arrays. -/
theorem result_eq (c : Dev nD)
    (hX : ∀ i, IsReal ((m ((c : Thread nD τ).loc main_arg0) : S8x4096x3.Idx → EReal) i))
    (hY : ∀ i, IsReal ((m ((c : Thread nD τ).loc main_arg1) : S8x4096x3.Idx → EReal) i)) :
    (Pipeline.afterTail₀ cfgs (dats m) 0 (V0 m) tailOps c main_v40 : S_.Idx → EReal)
      = Cert.ReferenceIdeal.Hand.tail
          (distY (m ((c : Thread nD τ).loc main_arg0)) (m ((c : Thread nD τ).loc main_arg1)))
          (distX (m ((c : Thread nD τ).loc main_arg0)) (m ((c : Thread nD τ).loc main_arg1))) := by
  unfold Pipeline.afterTail₀
  rw [tail_eq]
  have ey : (Pipeline.withArrays (cfgs 0).spec c (V0 m c) (fun w => (dats m 0 c).arrAt w (cfgs 0).N) (Proc.devRef .tc main_v1_0) : S8x4096x1.Idx → EReal)
      = GY m c := (Pipeline.withArrays_arr spec0 launch0.win.arr_inj c _ _ 2).trans (finalY m c hX hY)
  have ex : (Pipeline.withArrays (cfgs 0).spec c (V0 m c) (fun w => (dats m 0 c).arrAt w (cfgs 0).N) (Proc.devRef .tc main_v1_1) : S8x1x4096.Idx → EReal)
      = GX m c := (Pipeline.withArrays_arr spec0 launch0.win.arr_inj c _ _ 3).trans (finalX m c hX hY)
  rw [ey, ex]
  unfold GY GX
  rw [Cert.KernelIdeal.ShapeForms.cast_rows, Cert.KernelIdeal.ShapeForms.cast_cols]

/-- The run of the idealized kernel program under the precondition: the result is the masked-mean function of the
    specification's distance arrays, and both clouds end as launched. -/
theorem run_value (hpre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v40)
        = Cert.ReferenceIdeal.Hand.tail
            (distY (m ((c.tc : Thread nD τ).loc main_arg0)) (m ((c.tc : Thread nD τ).loc main_arg1)))
            (distX (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v40 (Pipeline.mem_restRefs_of main_v40 (by decide) (by decide))).trans
        (result_eq m c (Cert.KernelIdeal.Finite.real_of_pre m hpre c).1 (Cert.KernelIdeal.Finite.real_of_pre m hpre c).2),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩) (run_main m ρ)

end Cert.KernelIdeal.HandValue

end
-- ==== Proof.LibContractForms.lean ====
/-
  Two layout and contraction forms read at an index.

  A column `[a, 1]` read as the vector `[a]`: entry `i` of the vector is the column at `(i, 0)`, both sitting at row-major
  position `i`. And a batched product of two stacks of matrices that contracts the LAST axis of both — `[G, m, k]` by
  `[G, n, k]`, member by member the product of one matrix with the transpose of the other: entry `(g, a, b)` is the sum over
  `c` of `A (g, a, c) · B (g, b, c)`, over the extended reals. Every index is written by its coordinates.
-/
import Idealize.ShloMosaic.PureOps.Ideal.Laws
import Idealize.ShloMosaic.Lib.ValueIdx
import Idealize.ShloMosaic.Lib.Pipeline.Value

namespace Cert.ContractForms

open Idealize.ShloMosaic Idealize.ShloMosaic.ValueIdx

/-- A column `[a, 1]` read as a vector `[a]`: entry `i` is the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A batched product contracting the LAST axis of both operands — `[G, m, k]` by `[G, n, k]`, batch axes 0 and 0 — read
    at `(g, a, b)`: the sum over the contracted coordinate `c` of `A (g, a, c) · B (g, b, c)`. The left operand's index at
    output `(g, a, b)` and contraction coordinate `c` is `(g, a, c)`, the right operand's is `(g, b, c)`. -/
theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.ContractForms
-- ==== Proof.RefRead.lean ====
/-
  The reference's two distance arrays are the specification's, and its run ends at the specification's value.

  Read at an index over the extended reals: a sum along the last axis of an [8, 4096, 3] array from the zero word is the
  sum of the three coordinates; the batched product contracting the coordinate axis of both clouds is, at (b, n, m), the
  inner product of point n of the first with point m of the second; the two squared norms reach entry (b, n, m) through
  two broadcasts each (down the rows for the first cloud, along the columns for the second); the literal 2.0 is the
  number 2; and a minimum along one axis from the word of +∞ is the greatest lower bound over that axis. Put together,
  entry (b, n, m) of the program's squared-distance array is |x|² + |y|² − 2⟨x, y⟩ and its two minima are the two
  directed least distances. None of this asks an entry to be finite.
-/
import proofs.«134267_j10625749090595_2_alg».proof.Proof.RefTail
import proofs.«134267_j10625749090595_2_alg».proof.Proof.Spec
import proofs.«134267_j10625749090595_2_alg».proof.Proof.LibBlockedInf
import proofs.«134267_j10625749090595_2_alg».proof.Proof.LibMinForms
import proofs.«134267_j10625749090595_2_alg».proof.Proof.LibContractForms
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Idealize.ShloMosaic.TcCoe
  Idealize.SL.Sem

/-! ## Reductions of a rank-3 array along one axis, by coordinates -/

/-- The index of a rank-3 array that reduces to `(i, j)` along the last axis and has `k` there is `(i, j, k)`. -/
theorem lift3_last {a b c : ℕ} (h : (⟨3, ![a, b, c]⟩ : Shape).Reduces [2] ⟨2, ![a, b]⟩) (i : Fin a) (j : Fin b)
    (k : Fin ((⟨3, ![a, b, c]⟩ : Shape).size 2)) : h.lift (ix2 i j) k = ix3 i j (⟨k.val, k.isLt⟩ : Fin c) := by
  funext d; apply Fin.ext
  match d with
  | ⟨0, _⟩ => rfl
  | ⟨1, _⟩ => rfl
  | ⟨2, _⟩ => rfl

/-- The index of a rank-3 array that reduces to `(i, j)` along the middle axis and has `k` there is `(i, k, j)`. -/
theorem lift3_mid {a b c : ℕ} (h : (⟨3, ![a, b, c]⟩ : Shape).Reduces [1] ⟨2, ![a, c]⟩) (i : Fin a) (j : Fin c)
    (k : Fin ((⟨3, ![a, b, c]⟩ : Shape).size 1)) : h.lift (ix2 i j) k = ix3 i (⟨k.val, k.isLt⟩ : Fin b) j := by
  funext d; apply Fin.ext
  match d with
  | ⟨0, _⟩ => rfl
  | ⟨1, _⟩ => rfl
  | ⟨2, _⟩ => rfl

/-- A host sum along the last axis from the zero word, at `(i, j)`: the sum over the last coordinate. -/
theorem reduceAdd_last3 {a b c : ℕ} {u : Shape} (x : FVec Ideal ⟨3, ![a, b, c]⟩ .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduceAdd x (constant (F := Ideal) u .f32 0x00000000#32) h' hu (ix2 i j) = ∑ k : Fin c, x (ix3 i j k) := by
  show Ideal.hostReduceAdd h' x (Ideal.ofBits .f32 0x00000000#32) (ix2 i j) = _
  rw [Ideal.hostReduceAdd_single h' h, Ideal.ofBits_zero_f32, zero_add]
  exact Finset.sum_congr rfl fun k _ => congrArg x (lift3_last h i j k)

/-- A host minimum along the last axis from the word of +∞, at `(i, j)`: the greatest lower bound over the last coordinate. -/
theorem reduceMin_last3 {a b c : ℕ} {u : Shape} (x : FVec Ideal ⟨3, ![a, b, c]⟩ .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := .f32)) x (constant (F := Ideal) u .f32 0x7F800000#32) h' hu (ix2 i j)
      = (Finset.univ : Finset (Fin c)).inf fun k => x (ix3 i j k) := by
  rw [Host.reduce_eq_fold_single (FloatOps.minimumf (F := Ideal) (φ := .f32)) x _ h' h hu (ix2 i j)]
  show Finset.fold (min : EReal → EReal → EReal) (Ideal.ofBits .f32 0x7F800000#32) _ _ = _
  rw [Cert.MinForms.ofBits_top_f32, Finset.fold_min_top_eq_inf]
  exact Finset.inf_congr rfl fun k _ => congrArg x (lift3_last h i j k)

/-- A host minimum along the middle axis from the word of +∞, at `(i, j)`: the greatest lower bound over the middle coordinate. -/
theorem reduceMin_mid3 {a b c : ℕ} {u : Shape} (x : FVec Ideal ⟨3, ![a, b, c]⟩ .f32)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (j : Fin c) :
    Host.reduce (FloatOps.minimumf (F := Ideal) (φ := .f32)) x (constant (F := Ideal) u .f32 0x7F800000#32) h' hu (ix2 i j)
      = (Finset.univ : Finset (Fin b)).inf fun k => x (ix3 i k j) := by
  rw [Host.reduce_eq_fold_single (FloatOps.minimumf (F := Ideal) (φ := .f32)) x _ h' h hu (ix2 i j)]
  show Finset.fold (min : EReal → EReal → EReal) (Ideal.ofBits .f32 0x7F800000#32) _ _ = _
  rw [Cert.MinForms.ofBits_top_f32, Finset.fold_min_top_eq_inf]
  exact Finset.inf_congr rfl fun k _ => congrArg x (lift3_mid h i j k)

/-! ## The pieces of the squared distance at an entry -/

/-- The float word of 2.0 denotes the number 2. -/
theorem ofBits_two_f32 : Ideal.ofBits .f32 0x40000000#32 = (2 : EReal) := by
  simp [Ideal.ofBits, Ideal.ieee, -EReal.coe_mul]
  norm_num
  first | rfl | norm_cast

/-- The squared norm of point `n` of batch `b`: the host sum of the squares along the coordinate axis. -/
theorem sqNorm_apply (X : FVec Ideal S8x4096x3 .f32) (b : Fin 8) (n : Fin 4096) :
    Host.reduceAdd (F := Ideal) (mulf X X) (constant (F := Ideal) S_ .f32 0x00000000#32) reducesTo_S8x4096x3_S8x4096_d2 h_S_ (ix2 b n)
      = ∑ d : Fin 3, X (ix3 b n d) * X (ix3 b n d) :=
  reduceAdd_last3 (mulf X X) reducesTo_S8x4096x3_S8x4096_d2 (by decide) h_S_ b n

/-- A per-row quantity `[8, 4096]` made a column `[8, 4096, 1]` and spread over `[8, 4096, 4096]` reads, at `(b, n, m)`, its entry `(b, n)`. -/
theorem rows_apply {α : Type} (v : S8x4096.Idx → α) (b : Fin 8) (n m : Fin 4096) :
    broadcastInDim S8x4096x4096 ![0, 1, 2] bcast_S8x4096x1_S8x4096x4096_0_1_2
        (broadcastInDim S8x4096x1 ![0, 1] bcast_S8x4096_S8x4096x1_0_1 v) (ix3 b n m) = v (ix2 b n) :=
  (broadcastInDim_apply _ _ _ (ix3 b n m) (ix3 b n (0 : Fin 1)) fun ax => by
      match ax with
      | ⟨0, _⟩ => rfl
      | ⟨1, _⟩ => rfl
      | ⟨2, _⟩ => rfl).trans
    (broadcastInDim_apply _ _ _ (ix3 b n (0 : Fin 1)) (ix2 b n) fun ax => by
      match ax with
      | ⟨0, _⟩ => rfl
      | ⟨1, _⟩ => rfl)

/-- A per-column quantity `[8, 4096]` made a row `[8, 1, 4096]` and spread over `[8, 4096, 4096]` reads, at `(b, n, m)`, its entry `(b, m)`. -/
theorem cols_apply {α : Type} (v : S8x4096.Idx → α) (b : Fin 8) (n m : Fin 4096) :
    broadcastInDim S8x4096x4096 ![0, 1, 2] bcast_S8x1x4096_S8x4096x4096_0_1_2
        (broadcastInDim S8x1x4096 ![0, 2] bcast_S8x4096_S8x1x4096_0_2 v) (ix3 b n m) = v (ix2 b m) :=
  (broadcastInDim_apply _ _ _ (ix3 b n m) (ix3 b (0 : Fin 1) m) fun ax => by
      match ax with
      | ⟨0, _⟩ => rfl
      | ⟨1, _⟩ => rfl
      | ⟨2, _⟩ => rfl).trans
    (broadcastInDim_apply _ _ _ (ix3 b (0 : Fin 1) m) (ix2 b m) fun ax => by
      match ax with
      | ⟨0, _⟩ => rfl
      | ⟨1, _⟩ => rfl)

/-- The literal 2.0 spread over `[8, 4096, 4096]` is 2 at every entry. -/
theorem two_apply (j : S8x4096x4096.Idx) :
    broadcastInDim S8x4096x4096 ![] bcast_S_S8x4096x4096 (constant (F := Ideal) S_ .f32 0x40000000#32) j = (2 : EReal) :=
  (rfl : _ = Ideal.ofBits .f32 0x40000000#32).trans ofBits_two_f32

/-- The batched product of the two clouds at `(b, n, m)`: the inner product of point `n` of `X` with point `m` of `Y`. -/
theorem inner_apply (X Y : FVec Ideal S8x4096x3 .f32) (b : Fin 8) (n m : Fin 4096) :
    Host.dotGeneral (F := Ideal) dot_S8x4096x3_S8x4096x3_S8x4096x4096_2_2_1_1_0_0 none X Y (ix3 b n m)
      = ∑ d : Fin 3, X (ix3 b n d) * Y (ix3 b m d) :=
  Cert.ContractForms.dotGeneral_stackT_apply dot_S8x4096x3_S8x4096x3_S8x4096x4096_2_2_1_1_0_0_wf none X Y b n m

/-- Entry `(b, n, m)` of the program's squared-distance array is the specification's squared distance. -/
theorem d2_apply (X Y : FVec Ideal S8x4096x3 .f32) (b : Fin 8) (n m : Fin 4096) :
    d2 X Y (ix3 b n m) = Cert.Chamfer.d2 X Y b n m := by
  unfold d2 Cert.Chamfer.d2
  rw [subf_apply, addf_apply, mulf_apply, rows_apply, cols_apply, sqNorm_apply, sqNorm_apply, two_apply, inner_apply]

/-! ## The two distance arrays -/

/-- Statement %13 is the specification's `distY`: each point of `X` to its nearest point of `Y`. -/
theorem dY_eq (X Y : FVec Ideal S8x4096x3 .f32) : dY X Y = Cert.Chamfer.distY X Y := by
  funext i
  obtain ⟨b, n, rfl⟩ : ∃ (b : Fin 8) (n : Fin 4096), i = ix2 b n := ⟨i 0, i 1, eq_ix2 i⟩
  unfold dY Cert.Chamfer.distY
  rw [reduceMin_last3 (d2 X Y) reducesTo_S8x4096x4096_S8x4096_d2 (by decide) h_S_ b n]
  exact Finset.inf_congr rfl fun m _ => d2_apply X Y b n m

/-- Statement %14 is the specification's `distX`: each point of `Y` to its nearest point of `X`. -/
theorem dX_eq (X Y : FVec Ideal S8x4096x3 .f32) : dX X Y = Cert.Chamfer.distX X Y := by
  funext i
  obtain ⟨b, m, rfl⟩ : ∃ (b : Fin 8) (m : Fin 4096), i = ix2 b m := ⟨i 0, i 1, eq_ix2 i⟩
  unfold dX Cert.Chamfer.distX
  rw [reduceMin_mid3 (d2 X Y) reducesTo_S8x4096x4096_S8x4096_d1 (by decide) h_S_ b m]
  exact Finset.inf_congr rfl fun n _ => d2_apply X Y b n m

/-! ## The run, at the specification -/

/-- Every weakly fair execution of the reference at the extended reals terminates with its result the closing average
    of the masked means of the specification's two distance arrays of the arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
        = tail (Cert.Chamfer.distY (m ((c.tc : Thread nD τ).loc main_arg0)) (m ((c.tc : Thread nD τ).loc main_arg1)))
            (Cert.Chamfer.distX (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((result_eq _ _).trans (by rw [dY_eq, dX_eq])), (h c).2⟩)
    (run (F := Ideal) m ρ)

end Cert.ReferenceIdeal.Hand

end
-- ==== Proof.lean ====
/-
  The certificate of the nearest-point distance kernel against its reference.

  Both programs compute, for two point clouds of 8 batches of 4096 points in three dimensions, the least squared
  distance from each point of one cloud to the other cloud, and then the same masked mean of the two distance arrays.
  The kernel forms the squared distances tile by tile as |x|² + |y|² + ⟨-2·x, y⟩, takes the row minima per tile and a
  running column minimum across the four row tiles of a batch; the reference forms |x|² + |y|² - 2·⟨x, y⟩ on whole arrays
  and takes the two minima at once. Over the extended reals the two squared distances agree when every coordinate is a
  real number (the factor -2 moves across the sum of three products), a minimum taken tile by tile is the minimum, and the
  masked-mean lines are the same function on both sides. The three frames: the kernel program at the word level and
  idealized by the frame run around its one region (the body at the first row tile of a batch and at a later one), the
  reference by its run as a line of host operations. The ideal pass rewrote nothing, so the idealization claim is empty.
-/
import proofs.«134267_j10625749090595_2_alg».proof.Defs
import proofs.«134267_j10625749090595_2_alg».proof.Proof.Gen.Kernel
import proofs.«134267_j10625749090595_2_alg».proof.Proof.Gen.KernelIdeal
import proofs.«134267_j10625749090595_2_alg».proof.Proof.Gen.ReferenceIdeal
import proofs.«134267_j10625749090595_2_alg».proof.Proof.Gen.Pre_finite_inputs
import proofs.«134267_j10625749090595_2_alg».proof.Proof.KBRun
import proofs.«134267_j10625749090595_2_alg».proof.Proof.KIRun
import proofs.«134267_j10625749090595_2_alg».proof.Proof.KIValue
import proofs.«134267_j10625749090595_2_alg».proof.Proof.RefRead
import Idealize.ShloMosaic.Adequacy
import Idealize.ShloMosaic.Init

noncomputable section

namespace Cert.Proof

open Idealize.ShloMosaic Idealize.SL.Sem

/-- The word-level kernel program runs to the end and leaves both clouds as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the idealized reference. -/
theorem frame_reference : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- From memories agreeing on the clouds both idealized programs end at the masked-mean function of the
    specification's two distance arrays of those clouds. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Hand.tail
      (Cert.Chamfer.distY (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Chamfer.distX (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.HandValue.run_value m ρ hpre, ?_⟩
  refine (θ_run Cert.ReferenceIdeal.defs _ _).mono (fun _ h c => ⟨?_, (h c).2⟩) (Cert.ReferenceIdeal.Hand.run_spec m' ρ')
  rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
